-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4097x4096 : Shape := ⟨3, ![1, 4097, 4096]⟩
abbrev S4096x1024 : Shape := ⟨2, ![4096, 1024]⟩
abbrev S1024x4096 : Shape := ⟨2, ![1024, 4096]⟩
abbrev S_ : Shape := ⟨0, ![]⟩

class Facts : Prop where
  bcast_S_S1x4097x4096 : S_.BroadcastsInDim S1x4097x4096 (![] : Fin 0 → Fin S1x4097x4096.rank)
  reducesTo_S1x4097x4096_S_d0_1_2 : S1x4097x4096.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S1x4097x4096 .f32) (main_arg1 : FVec F S4096x1024 .f32) (main_arg2 : FVec F S1024x4096 .f32) : IVec S_ 1 :=
  let main_v0 : FVec F S1x4097x4096 .f32 := Host.absf main_arg0
  let main_cst : FVec F S_ .f32 := constant S_ .f32 0x7F800000#32
  let main_v1 : FVec F S1x4097x4096 .f32 := broadcastInDim S1x4097x4096 ![] bcast_S_S1x4097x4096 main_cst
  let main_v2 : IVec S1x4097x4096 1 := cmpf .olt main_v0 main_v1
  let main_c : IVec S_ 1 := constantI S_ 1 1#1
  let main_v3 : IVec S_ 1 := (fun x v => Host.reduce IntOp.andi x v reducesTo_S1x4097x4096_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  main_v13
-- ==== Kernel.lean ====
abbrev S1x4097x4096 : Shape := ⟨3, ![1, 4097, 4096]⟩
abbrev S4096x1024 : Shape := ⟨2, ![4096, 1024]⟩
abbrev S1024x4096 : Shape := ⟨2, ![1024, 4096]⟩
abbrev S1x4096x4096 : Shape := ⟨3, ![1, 4096, 4096]⟩
abbrev S4096x4096 : Shape := ⟨2, ![4096, 4096]⟩
abbrev S1024x256 : Shape := ⟨2, ![1024, 256]⟩
abbrev S256x1024 : Shape := ⟨2, ![256, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 8
  | .vmem => 18
  | .smem => 0
  | _ => 0

abbrev bufTy : (tb : Table) → Fin (tcTables nBuf tb) → BufTy
  | .hbm, ⟨0, _⟩ => ⟨S1x4097x4096, .f32⟩
  | .hbm, ⟨1, _⟩ => ⟨S4096x1024, .f32⟩
  | .hbm, ⟨2, _⟩ => ⟨S1024x4096, .f32⟩
  | .hbm, ⟨3, _⟩ => ⟨S1x4096x4096, .f32⟩
  | .hbm, ⟨4, _⟩ => ⟨S4096x4096, .f32⟩
  | .hbm, ⟨5, _⟩ => ⟨S4096x1024, .bf16⟩
  | .hbm, ⟨6, _⟩ => ⟨S1024x4096, .bf16⟩
  | .hbm, ⟨7, _⟩ => ⟨S4096x4096, .f32⟩
  | .local _ .vmem, ⟨0, _⟩ => ⟨S1024x256, .f32⟩
  | .local _ .vmem, ⟨1, _⟩ => ⟨S1024x256, .f32⟩
  | .local _ .vmem, ⟨2, _⟩ => ⟨S256x1024, .f32⟩
  | .local _ .vmem, ⟨3, _⟩ => ⟨S256x1024, .f32⟩
  | .local _ .vmem, ⟨4, _⟩ => ⟨S1024x256, .f32⟩
  | .local _ .vmem, ⟨5, _⟩ => ⟨S1024x256, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S512x1024, .bf16⟩
  | .local _ .vmem, ⟨13, _⟩ => ⟨S512x1024, .bf16⟩
  | .local _ .vmem, ⟨14, _⟩ => ⟨S1024x512, .bf16⟩
  | .local _ .vmem, ⟨15, _⟩ => ⟨S1024x512, .bf16⟩
  | .local _ .vmem, ⟨16, _⟩ => ⟨S512x512, .f32⟩
  | .local _ .vmem, ⟨17, _⟩ => ⟨S512x512, .f32⟩
  | _, _ => ⟨S1x4097x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v22 : BitVec 1 := Scalar.cmpi .eq arg1 c15_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 8], ![false, false]⟩

def k1_cond1 (i : grid1.Coords) : BitVec 1 :=
  let arg1 : BitVec 32 := BitVec.ofNat 32 (i 1).val
  let arg0 : BitVec 32 := BitVec.ofNat 32 (i 0).val
  let v0 : BitVec 1 := Scalar.cmpi .sle arg1 arg0
  let v1 : BitVec 32 := Scalar.extui v0
  let c0_i32 : BitVec 32 := 0#32
  let v2 : BitVec 1 := Scalar.cmpi .ne v1 c0_i32
  v2

def k1_cond2 (i : grid1.Coords) : BitVec 1 :=
  let arg1 : BitVec 32 := BitVec.ofNat 32 (i 1).val
  let arg0 : BitVec 32 := BitVec.ofNat 32 (i 0).val
  let v3 : BitVec 1 := Scalar.cmpi .sgt arg1 arg0
  let v4 : BitVec 32 := Scalar.extui v3
  let c0_i32_0 : BitVec 32 := 0#32
  let v5 : BitVec 1 := Scalar.cmpi .ne v4 c0_i32_0
  v5

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  slices_S1x4097x4096_S1x4096x4096_0_1_0 : S1x4097x4096.Slices ![0, 1, 0] S1x4096x4096
  shapeCasts_S1x4096x4096_S4096x4096 : S1x4096x4096.ShapeCasts S4096x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  packedbf16_S1024x1024_S1024x1024_0_0 : (Rect.unit (s := S1024x1024) ![0, 0] S1024x1024.size inb_S1024x1024_S1024x1024_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  iota_S512x512_d0_w32 : S512x512.Iotas .tc 32 [0]
  iota_S512x512_d1_w32 : S512x512.Iotas .tc 32 [1]
  inb_S512x512_S512x512_0_0 : ∀ a, (![0, 0] : Fin 2 → Nat) a + S512x512.size a ≤ S512x512.size a
  h_S512x512 : 0 < S512x512.numel
  dot_S1024x256_S256x1024_S1024x1024_1_0_0_1_n_n_wf : DotDims.WF S1024x256 S256x1024 S1024x1024 [1] [0] [0] [1] [] []
  dot_S1024x256_S1024x256_S1024x1024_1_1_0_0_n_n_wf : DotDims.WF S1024x256 S1024x256 S1024x1024 [1] [1] [0] [0] [] []
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x4096.size a
  hwx0_0 : ∀ i : grid0.Coords, EltTy.bits .f32 = 32 ∨ (Rect.block (s := S4096x4096) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x4096.size a
  hwx0_2 : ∀ i : grid0.Coords, EltTy.bits .f32 = 32 ∨ (Rect.block (s := S1024x4096) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .bf16 = 32 ∨ (Rect.block (s := S4096x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x4096.size a
  hwx0_4 : ∀ i : grid0.Coords, EltTy.bits .bf16 = 32 ∨ (Rect.block (s := S1024x4096) S1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .bf16 = 32 ∨ (Rect.block (s := S4096x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x4096.size a
  hwx1_1 : ∀ i : grid1.Coords, EltTy.bits .bf16 = 32 ∨ (Rect.block (s := S1024x4096) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S4096x4096.size a
  hwx1_2 : ∀ i : grid1.Coords, EltTy.bits .f32 = 32 ∨ (Rect.block (s := S4096x4096) S512x512.size (cc1_transform_2 i) (hinb1_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v1) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v2_0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond1 i == 1#1) && !(k1_cond2 i == 1#1) | ⟨_ + 3, h⟩ => absurd h (Nat.not_lt.2 (Nat.le_add_left _ _))

class Facts : Prop extends Facts₀ where

variable [Facts]
-- ==== ReferenceIdeal.lean ====
abbrev S1x4097x4096 : Shape := ⟨3, ![1, 4097, 4096]⟩
abbrev S4096x1024 : Shape := ⟨2, ![4096, 1024]⟩
abbrev S1024x4096 : Shape := ⟨2, ![1024, 4096]⟩
abbrev S1x4096x4096 : Shape := ⟨3, ![1, 4096, 4096]⟩
abbrev S4096x4096 : Shape := ⟨2, ![4096, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S1x4097x4096, .f32⟩
  | .hbm, ⟨1, _⟩ => ⟨S4096x1024, .f32⟩
  | .hbm, ⟨2, _⟩ => ⟨S1024x4096, .f32⟩
  | .hbm, ⟨3, _⟩ => ⟨S1x4096x4096, .f32⟩
  | .hbm, ⟨4, _⟩ => ⟨S4096x4096, .f32⟩
  | .hbm, ⟨5, _⟩ => ⟨S4096x1024, .f32⟩
  | .hbm, ⟨6, _⟩ => ⟨S4096x4096, .f32⟩
  | .hbm, ⟨7, _⟩ => ⟨S1024x4096, .f32⟩
  | .hbm, ⟨8, _⟩ => ⟨S4096x4096, .f32⟩
  | .hbm, ⟨9, _⟩ => ⟨S4096x4096, .i32⟩
  | .hbm, ⟨10, _⟩ => ⟨S_, .i32⟩
  | .hbm, ⟨11, _⟩ => ⟨S4096x4096, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S4096x4096, .f32⟩
  | .hbm, ⟨17, _⟩ => ⟨S4096x4096, .f32⟩
  | _, _ => ⟨S1x4097x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst : Ref sig .tc := ⟨.hbm, 15, rfl⟩
abbrev main_call0_v5 : Ref sig .tc := ⟨.hbm, 16, rfl⟩
abbrev main_v6 : Ref sig .tc := ⟨.hbm, 17, rfl⟩

abbrev nD : Nat := 1
abbrev τ : Topo := Topo.v7x

variable {F : FTy → Type} [FloatOps F]

class Facts₀ : Prop where
  slices_S1x4097x4096_S1x4096x4096_0_1_0 : S1x4097x4096.Slices ![0, 1, 0] S1x4096x4096
  shapeCasts_S1x4096x4096_S4096x4096 : S1x4096x4096.ShapeCasts S4096x4096
  transposes_S4096x4096_S4096x4096_1_0 : S4096x4096.Transposes [1, 0] S4096x4096
  bcast_S_S4096x4096 : S_.BroadcastsInDim S4096x4096 (![] : Fin 0 → Fin S4096x4096.rank)
  dot_S4096x4096_S4096x1024_S4096x1024_1_0_0_1_n_n_wf : DotDims.WF S4096x4096 S4096x1024 S4096x1024 [1] [0] [0] [1] [] []
  dot_S1024x4096_S4096x4096_S1024x4096_1_0_0_1_n_n_wf : DotDims.WF S1024x4096 S4096x4096 S1024x4096 [1] [0] [0] [1] [] []
  dot_S4096x1024_S1024x4096_S4096x4096_1_0_0_1_n_n_wf : DotDims.WF S4096x1024 S1024x4096 S4096x4096 [1] [0] [0] [1] [] []

variable [Facts₀]

def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf
def dot_S1024x4096_S4096x4096_S1024x4096_1_0_0_1_n_n : DotDims S1024x4096 S4096x4096 S1024x4096 where
  lhsContracting := [1]
  rhsContracting := [0]
  lhsNonContracting := [0]
  rhsNonContracting := [1]
  lhsBatch := []
  rhsBatch := []
  wf := dot_S1024x4096_S4096x4096_S1024x4096_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.K.R0Runs.lean ====
/- Region 0 (the fused X·P and Q·Xᵀ accumulation): what its per-case runs and its proof data share — the windows' blocks
   read off the region's entry contents, the two branch conditions of the body in closed form over the grid
   (the accumulators are zeroed where the reduction coordinate is 0 and cast out where it is 15), where the two output
   windows are idle, and the scratch accumulators as memrefs. -/
import proofs.«145582_j70995809403345_2_alg».proof.Proof.Gen.Kernel.Launch
import proofs.«145582_j70995809403345_2_alg».proof.Proof.Gen.Kernel.Skeleton
import proofs.«145582_j70995809403345_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The reduction coordinate is 0: the accumulators are zeroed first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The reduction coordinate is 15, the last: the accumulators are cast into the output windows. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last reduction step nothing is stored into the output windows, and they are not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

/-- One staging buffer of each output window, through which its contents are stated. -/
abbrev VO0_3 : View sig .tc .vmem S1024x1024 .bf16 := (Memref.whole cc0_stg3_0 : Memref sig .tc .vmem S1024x1024 .bf16).view
abbrev VO0_4 : View sig .tc .vmem S1024x1024 .bf16 := (Memref.whole cc0_stg4_0 : Memref sig .tc .vmem S1024x1024 .bf16).view
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
/-- The two accumulators: whole scoped buffers of the kernel's own. -/
abbrev scM0_0 : Memref sig .tc .vmem S1024x1024 .f32 := Memref.whole cc0_scratch0
abbrev scM0_1 : Memref sig .tc .vmem S1024x1024 .f32 := Memref.whole cc0_scratch1
abbrev VS0_0 : View sig .tc .vmem S1024x1024 .f32 := scM0_0.view
abbrev VS0_1 : View sig .tc .vmem S1024x1024 .f32 := scM0_1.view

/-- The scoped buffers of the core that are neither a staging buffer of this region nor an accumulator (the other
    region's staging buffers), each at some contents. -/
abbrev otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ otherScoped0 c) ∗ (∃ r, prngReg c r)) := by
  unfold Pipeline.ΦA; rw [scopedRest0_eq]; simp only [scM0_0, scM0_1, owns_whole]; try rfl

end Cert.Kernel.Hand

end
-- ==== Proof.K.R0RunA.lean ====
/- Region 0, the body's run where the reduction coordinate is 0 (the accumulators zeroed, then added to): on whole staging memrefs the body runs to the end, leaving the three input blocks as they
   were, each accumulator with the pieces it stored (found by running the body), and the two output buffers
   untouched. -/
import proofs.«145582_j70995809403345_2_alg».proof.Proof.K.R0Runs
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun0_A (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x256 .f32) (x1 : Vec F S256x1024 .f32) (x2 : Vec F S1024x256 .f32) :
    Σ' (L3 : List (View.Piece (Elt F) S1024x1024 .bf16)) (L4 : List (View.Piece (Elt F) S1024x1024 .bf16)) (LS0 : List (View.Piece (Elt F) S1024x1024 .f32)), { LS1 : List (View.Piece (Elt F) S1024x1024 .f32) //
      ∀ (xi3 : Vec F S1024x1024 .bf16) (xi4 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__fused_xp_qxt_kernel i arg2 harg2 arg3 harg3 arg4 harg4 arg5 harg5 arg6 harg6 arg7 harg7 arg8 harg8) K } := by
  refine ⟨[], [], ?_, ?_, fun xi3 xi4 E K => ?run⟩
  case run =>
    simp only [cc0__fused_xp_qxt_kernel_eq_skeleton]; unfold cc0__fused_xp_qxt_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.K.R0RunB.lean ====
/- Region 0, the body's run where the reduction coordinate is neither 0 nor 15 (the accumulators added to): on whole staging memrefs the body runs to the end, leaving the three input blocks as they
   were, each accumulator with the pieces it stored (found by running the body), and the two output buffers
   untouched. -/
import proofs.«145582_j70995809403345_2_alg».proof.Proof.K.R0Runs
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun0_B (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x256 .f32) (x1 : Vec F S256x1024 .f32) (x2 : Vec F S1024x256 .f32) (xs0 : Vec F S1024x1024 .f32) (xs1 : Vec F S1024x1024 .f32) :
    Σ' (L3 : List (View.Piece (Elt F) S1024x1024 .bf16)) (L4 : List (View.Piece (Elt F) S1024x1024 .bf16)) (LS0 : List (View.Piece (Elt F) S1024x1024 .f32)), { LS1 : List (View.Piece (Elt F) S1024x1024 .f32) //
      ∀ (xi3 : Vec F S1024x1024 .bf16) (xi4 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__fused_xp_qxt_kernel i arg2 harg2 arg3 harg3 arg4 harg4 arg5 harg5 arg6 harg6 arg7 harg7 arg8 harg8) K } := by
  refine ⟨[], [], ?_, ?_, fun xi3 xi4 E K => ?run⟩
  case run =>
    simp only [cc0__fused_xp_qxt_kernel_eq_skeleton]; unfold cc0__fused_xp_qxt_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.K.R0RunC.lean ====
/- Region 0, the body's run where the reduction coordinate is 15 (the accumulators added to, then cast into the outputs): on whole staging memrefs the body runs to the end, leaving the three input blocks as they
   were, each accumulator with the pieces it stored (found by running the body), and the two output buffers
   with the pieces stored into them. -/
import proofs.«145582_j70995809403345_2_alg».proof.Proof.K.R0Runs
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun0_C (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x256 .f32) (x1 : Vec F S256x1024 .f32) (x2 : Vec F S1024x256 .f32) (xs0 : Vec F S1024x1024 .f32) (xs1 : Vec F S1024x1024 .f32) :
    Σ' (L3 : List (View.Piece (Elt F) S1024x1024 .bf16)) (L4 : List (View.Piece (Elt F) S1024x1024 .bf16)) (LS0 : List (View.Piece (Elt F) S1024x1024 .f32)), { LS1 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__fused_xp_qxt_kernel i arg2 harg2 arg3 harg3 arg4 harg4 arg5 harg5 arg6 harg6 arg7 harg7 arg8 harg8) K } := by
  refine ⟨?_, ?_, ?_, ?_, fun E K => ?run⟩
  case run =>
    simp only [cc0__fused_xp_qxt_kernel_eq_skeleton]; unfold cc0__fused_xp_qxt_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.Kernel.Hand

end
-- ==== Proof.K.R0Frame.lean ====
/- Region 0 (the fused X·P and Q·Xᵀ accumulation): what the two output buffers and the two accumulators hold after each grid
   point (by recursion on the point: zeroed and added to where the reduction coordinate is 0, added to at the others, the
   outputs the accumulators' casts where it is 15), the proof data, and the body obligation point by point. -/
import proofs.«145582_j70995809403345_2_alg».proof.Proof.K.R0RunA
import proofs.«145582_j70995809403345_2_alg».proof.Proof.K.R0RunB
import proofs.«145582_j70995809403345_2_alg».proof.Proof.K.R0RunC
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pieces each run leaves cover their buffers -/

theorem scover0_A_0 (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x256 .f32) (x1 : Vec F S256x1024 .f32) (x2 : Vec F S1024x256 .f32) (y : S1024x1024.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL (kernelRun0_A c i arg2 harg2 arg3 harg3 arg4 harg4 arg5 harg5 arg6 harg6 arg7 harg7 arg8 harg8 hc0 hc1 x0 x1 x2).2.2.1 S1024x1024.size (by sl_kernel_rfl) y

theorem scover0_A_1 (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x256 .f32) (x1 : Vec F S256x1024 .f32) (x2 : Vec F S1024x256 .f32) (y : S1024x1024.Idx) :
    ∃ pc ∈ (kernelRun0_A c i arg2 harg2 arg3 harg3 arg4 harg4 arg5 harg5 arg6 harg6 arg7 harg7 arg8 harg8 hc0 hc1 x0 x1 x2).2.2.2.1, y ∈ pc.1.set :=
  View.cover_of_tiledL (kernelRun0_A c i arg2 harg2 arg3 harg3 arg4 harg4 arg5 harg5 arg6 harg6 arg7 harg7 arg8 harg8 hc0 hc1 x0 x1 x2).2.2.2.1 S1024x1024.size (by sl_kernel_rfl) y

theorem scover0_B_0 (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x256 .f32) (x1 : Vec F S256x1024 .f32) (x2 : Vec F S1024x256 .f32) (xs0 : Vec F S1024x1024 .f32) (xs1 : Vec F S1024x1024 .f32) (y : S1024x1024.Idx) :
    ∃ pc ∈ (kernelRun0_B c i arg2 harg2 arg3 harg3 arg4 harg4 arg5 harg5 arg6 harg6 arg7 harg7 arg8 harg8 hc0 hc1 x0 x1 x2 xs0 xs1).2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.1 S1024x1024.size (by sl_kernel_rfl) y

theorem scover0_B_1 (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x256 .f32) (x1 : Vec F S256x1024 .f32) (x2 : Vec F S1024x256 .f32) (xs0 : Vec F S1024x1024 .f32) (xs1 : Vec F S1024x1024 .f32) (y : S1024x1024.Idx) :
    ∃ pc ∈ (kernelRun0_B c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.2.1 S1024x1024.size (by sl_kernel_rfl) y

theorem scover0_C_0 (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x256 .f32) (x1 : Vec F S256x1024 .f32) (x2 : Vec F S1024x256 .f32) (xs0 : Vec F S1024x1024 .f32) (xs1 : Vec F S1024x1024 .f32) (y : S1024x1024.Idx) :
    ∃ pc ∈ (kernelRun0_C c i arg2 harg2 arg3 harg3 arg4 harg4 arg5 harg5 arg6 harg6 arg7 harg7 arg8 harg8 hc0 hc1 x0 x1 x2 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.1 S1024x1024.size (by sl_kernel_rfl) y

theorem scover0_C_1 (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x256 .f32) (x1 : Vec F S256x1024 .f32) (x2 : Vec F S1024x256 .f32) (xs0 : Vec F S1024x1024 .f32) (xs1 : Vec F S1024x1024 .f32) (y : S1024x1024.Idx) :
    ∃ pc ∈ (kernelRun0_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.2.1 S1024x1024.size (by sl_kernel_rfl) y

theorem cover0_C_3 (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x256 .f32) (x1 : Vec F S256x1024 .f32) (x2 : Vec F S1024x256 .f32) (xs0 : Vec F S1024x1024 .f32) (xs1 : Vec F S1024x1024 .f32) (y : S1024x1024.Idx) :
    ∃ pc ∈ (kernelRun0_C c i arg2 harg2 arg3 harg3 arg4 harg4 arg5 harg5 arg6 harg6 arg7 harg7 arg8 harg8 hc0 hc1 x0 x1 x2 xs0 xs1).1, y ∈ pc.1.set :=
  View.cover_of_tiledL (kernelRun0_C c i arg2 harg2 arg3 harg3 arg4 harg4 arg5 harg5 arg6 harg6 arg7 harg7 arg8 harg8 hc0 hc1 x0 x1 x2 xs0 xs1).1 S1024x1024.size (by sl_kernel_rfl) y

theorem cover0_C_4 (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x256 .f32) (x1 : Vec F S256x1024 .f32) (x2 : Vec F S1024x256 .f32) (xs0 : Vec F S1024x1024 .f32) (xs1 : Vec F S1024x1024 .f32) (y : S1024x1024.Idx) :
    ∃ pc ∈ (kernelRun0_C c i arg2 harg2 arg3 harg3 arg4 harg4 arg5 harg5 arg6 harg6 arg7 harg7 arg8 harg8 hc0 hc1 x0 x1 x2 xs0 xs1).2.1, y ∈ pc.1.set :=
  View.cover_of_tiledL (kernelRun0_C c i arg2 harg2 arg3 harg3 arg4 harg4 arg5 harg5 arg6 harg6 arg7 harg7 arg8 harg8 hc0 hc1 x0 x1 x2 xs0 xs1).2.1 S1024x1024.size (by sl_kernel_rfl) y

/-- What the run A leaves, as contents: the two output buffers and the two accumulators, each its pieces read back. -/
def cont0_A (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x256 .f32) (x1 : Vec F S256x1024 .f32) (x2 : Vec F S1024x256 .f32) :
    Vec F S1024x1024 .bf16 × Vec F S1024x1024 .bf16 × Vec F S1024x1024 .f32 × Vec F S1024x1024 .f32 :=
  (VO0_3.read (Elt F) (VO0_3.writes (Elt F) VO0_3.junk (kernelRun0_A c i arg2 harg2 arg3 harg3 arg4 harg4 arg5 harg5 arg6 harg6 arg7 harg7 arg8 harg8 hc0 hc1 x0 x1 x2).1),
   VO0_4.read (Elt F) (VO0_4.writes (Elt F) VO0_4.junk (kernelRun0_A c i arg2 harg2 arg3 harg3 arg4 harg4 arg5 harg5 arg6 harg6 arg7 harg7 arg8 harg8 hc0 hc1 x0 x1 x2).2.1),
   VS0_0.read (Elt F) (VS0_0.writes (Elt F) VS0_0.junk (kernelRun0_A c i arg2 harg2 arg3 harg3 arg4 harg4 arg5 harg5 arg6 harg6 arg7 harg7 arg8 harg8 hc0 hc1 x0 x1 x2).2.2.1),
   VS0_1.read (Elt F) (VS0_1.writes (Elt F) VS0_1.junk (kernelRun0_A c i arg2 harg2 arg3 harg3 arg4 harg4 arg5 harg5 arg6 harg6 arg7 harg7 arg8 harg8 hc0 hc1 x0 x1 x2).2.2.2.1))

/-- What the run B leaves, as contents: the two output buffers and the two accumulators, each its pieces read back. -/
def cont0_B (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x256 .f32) (x1 : Vec F S256x1024 .f32) (x2 : Vec F S1024x256 .f32) (xs0 : Vec F S1024x1024 .f32) (xs1 : Vec F S1024x1024 .f32) :
    Vec F S1024x1024 .bf16 × Vec F S1024x1024 .bf16 × Vec F S1024x1024 .f32 × Vec F S1024x1024 .f32 :=
  (VO0_3.read (Elt F) (VO0_3.writes (Elt F) VO0_3.junk (kernelRun0_B c i arg2 harg2 arg3 harg3 arg4 harg4 arg5 harg5 arg6 harg6 arg7 harg7 arg8 harg8 hc0 hc1 x0 x1 x2 xs0 xs1).1),
   VO0_4.read (Elt F) (VO0_4.writes (Elt F) VO0_4.junk (kernelRun0_B c i arg2 harg2 arg3 harg3 arg4 harg4 arg5 harg5 arg6 harg6 arg7 harg7 arg8 harg8 hc0 hc1 x0 x1 x2 xs0 xs1).2.1),
   VS0_0.read (Elt F) (VS0_0.writes (Elt F) VS0_0.junk (kernelRun0_B c i arg2 harg2 arg3 harg3 arg4 harg4 arg5 harg5 arg6 harg6 arg7 harg7 arg8 harg8 hc0 hc1 x0 x1 x2 xs0 xs1).2.2.1),
   VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1).2.2.2.1))

/-- What the run C leaves, as contents: the two output buffers and the two accumulators, each its pieces read back. -/
def cont0_C (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x256 .f32) (x1 : Vec F S256x1024 .f32) (x2 : Vec F S1024x256 .f32) (xs0 : Vec F S1024x1024 .f32) (xs1 : Vec F S1024x1024 .f32) :
    Vec F S1024x1024 .bf16 × Vec F S1024x1024 .bf16 × Vec F S1024x1024 .f32 × Vec F S1024x1024 .f32 :=
  (VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1).1),
   VO0_4.read (Elt F) (VO0_4.writes (Elt F) VO0_4.junk (kernelRun0_C c i arg2 harg2 arg3 harg3 arg4 harg4 arg5 harg5 arg6 harg6 arg7 harg7 arg8 harg8 hc0 hc1 x0 x1 x2 xs0 xs1).2.1),
   VS0_0.read (Elt F) (VS0_0.writes (Elt F) VS0_0.junk (kernelRun0_C c i arg2 harg2 arg3 harg3 arg4 harg4 arg5 harg5 arg6 harg6 arg7 harg7 arg8 harg8 hc0 hc1 x0 x1 x2 xs0 xs1).2.2.1),
   VS0_1.read (Elt F) (VS0_1.writes (Elt F) VS0_1.junk (kernelRun0_C c i arg2 harg2 arg3 harg3 arg4 harg4 arg5 harg5 arg6 harg6 arg7 harg7 arg8 harg8 hc0 hc1 x0 x1 x2 xs0 xs1).2.2.2.1))

/-! ## What the buffers hold after each point -/

/-- THE ACCUMULATION: the two output buffers and the two accumulators after the body at position `n`: the run the closed
    forms select at `n`, on the point's input blocks and (past a reduction's first step) on the accumulators the point
    before left. (An idle output's component is a placeholder nothing consults.) -/
def outsAt0 (c : Dev nD) : (n : ℕ) → n < cfg0.N → Vec F S1024x1024 .bf16 × Vec F S1024x1024 .bf16 × Vec F S1024x1024 .f32 × Vec F S1024x1024 .f32
  | 0, hn => cont0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩)
  | n + 1, hn =>
    if h0 : (n + 1) % 16 = 0 then
      if h1 : (n + 1) % 16 = 15 then
        False.elim (by omega)
      else
        cont0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩)
    else
      if h1 : (n + 1) % 16 = 15 then
        cont0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2
      else
        cont0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2

/-- The accumulators the point before `t` left (for a point that is not a reduction's first). -/
abbrev prev0 (c : Dev nD) (t : Fin cfg0.N) : Vec F S1024x1024 .bf16 × Vec F S1024x1024 .bf16 × Vec F S1024x1024 .f32 × Vec F S1024x1024 .f32 :=
  outsAt0 V c (t.val - 1) (Nat.lt_of_le_of_lt (Nat.sub_le _ _) t.isLt)

theorem outsAt0_A (c : Dev nD) (t : Fin cfg0.N) (h0 : t.val % 16 = 0) (h1 : ¬t.val % 16 = 15) :
    outsAt0 V c t.val t.isLt = cont0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = cont0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (prev0 V c t).2.2.1 (prev0 V c t).2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = cont0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (prev0 V c t).2.2.1 (prev0 V c t).2.2.2 := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no staging
    buffer of this region at anything); afterwards the two accumulators at what the point before left, the other scoped
    buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ otherScoped0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ otherScoped0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ otherScoped0 c) ∗ (∃ r, prngReg c r)) := by
  cases n with
  | zero => exact absurd rfl hz
  | succ n => rfl

/-! ## The pipeline's proof data -/

/-- The proof data of pipeline 0 on core `c`: the arrays as the region finds them; after the body at point `t` each
    input's buffer at its block, the outputs' at `outsAt0`'s components; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 8000000 in
/-- The body at any point: the inputs' memrefs hold their blocks; the closed forms say which run the point is in; the
    invariant hands the body the accumulators at what the point before left (at anything before the first point) and takes
    them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  have hN : t.val < 64 := lt_of_lt_of_eq t.isLt (show cfg0.N = 64 from N_0)
  by_cases h0 : t.val % 16 = 0
  · have h1 : ¬t.val % 16 = 15 := by omega
    have hnc1 : ¬cond0_1 (grid0.coords t) := fun h => h1 ((hcond0_1 t).mp h)
    rw [Dat.leavesExact_idle (dat0 V c) 3 t (idleAt0_3 t hnc1) (noFlush0_3 t hnc1),
      Dat.leavesExact_idle (dat0 V c) 4 t (idleAt0_4 t hnc1) (noFlush0_4 t hnc1)]
    rw [outsAt0_A V c t h0 h1]
    unfold cont0_A; (try dsimp only)
    by_cases hz : t.val = 0
    · rw [PhiS_castSucc V c t, PhiS_zero V c _ _ hz, PhiA0_eq]
      iintro ⟨⟨⟨HS0, HS1, Hoth⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ ((hcond0_0 t).mpr h0) hnc1 (iblk0 V c 0 t) (iblk0 V c 1 t) (iblk0 V c 2 t)).2.2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4
    · rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ ((hcond0_0 t).mpr h0) hnc1 (iblk0 V c 0 t) (iblk0 V c 1 t) (iblk0 V c 2 t)).2.2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    have hnc0 : ¬cond0_0 (grid0.coords t) := fun h => h0 ((hcond0_0 t).mp h)
    by_cases h1 : t.val % 16 = 15
    · have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3]
      rw [show (dat0 V c).leavesExact 4 t = owns (c : Thread nD τ) (ms0_4 t) fullShare ((dat0 V c).after 4 t) from by
        unfold Dat.leavesExact; rw [liveAt0_4 t hc1], after0_4]
      rw [outsAt0_C V c t h0 h1]
      unfold cont0_C; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ hnc0 hc1 (iblk0 V c 0 t) (iblk0 V c 1 t) (iblk0 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _ _)
      unfold owns; iexists _; isplitr
      swap; · iexact H4
      ipureintro; exact View.read_writes_of_cover _ _ _ _ _ (cover0_C_4 c _ _ _ _ _ _ _ _ _ _ _ _ _ _ _ _ _ _ _ _ _ _)
    · have hnc1 : ¬cond0_1 (grid0.coords t) := fun h => h1 ((hcond0_1 t).mp h)
      rw [Dat.leavesExact_idle (dat0 V c) 3 t (idleAt0_3 t hnc1) (noFlush0_3 t hnc1),
        Dat.leavesExact_idle (dat0 V c) 4 t (idleAt0_4 t hnc1) (noFlush0_4 t hnc1)]
      rw [outsAt0_B V c t h0 h1]
      unfold cont0_B; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ hnc0 hnc1 (iblk0 V c 0 t) (iblk0 V c 1 t) (iblk0 V c 2 t) _ _).2.2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulators' named contents are forgotten. -/
theorem hout0 (c : Dev nD) : (dat0 V c).Φ (Fin.last cfg0.N) ⊢ (Pipeline.ΦA spec0 c : sProp 𝕄) := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS0, HS1, Hoth⟩, Hg⟩
  isplitr [Hg]
  · isplitl [HS0]; · iexists _; iexact HS0
    isplitl [HS1]; · iexists _; iexact HS1
    iexact Hoth
  iexact Hg

end Cert.Kernel.Hand

end
-- ==== Proof.K.R1Runs.lean ====
/- Region 1 (the masked product of the two intermediate arrays): the windows' blocks, the body's two branch conditions in closed form over the grid, where the output window is live, and the body's accesses. -/
import proofs.«145582_j70995809403345_2_alg».proof.Proof.Gen.Kernel.Launch
import proofs.«145582_j70995809403345_2_alg».proof.Proof.Gen.Kernel.Skeleton
import proofs.«145582_j70995809403345_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, in closed form over the grid

Point `t` of the 8 × 8 grid has row-block `t / 8` and column-block `t % 8`. The first branch (the masked product) is
taken when the column-block is at most the row-block, the second (all zeros) when it is greater: exactly one holds. -/

theorem hcond1_1 : ∀ t : Fin cfg1.N, k1_cond1 (grid1.coords t) = 1#1 ↔ t.val % 8 ≤ t.val / 8 :=
  (by decide +kernel : ∀ t : Fin grid1.N, k1_cond1 (grid1.coords t) = 1#1 ↔ t.val % 8 ≤ t.val / 8)

theorem hcond1_2 : ∀ t : Fin cfg1.N, k1_cond2 (grid1.coords t) = 1#1 ↔ t.val / 8 < t.val % 8 :=
  (by decide +kernel : ∀ t : Fin grid1.N, k1_cond2 (grid1.coords t) = 1#1 ↔ t.val / 8 < t.val % 8)

/-- The grid coordinates of point `t`: row-block `t / 8`, column-block `t % 8`. -/
theorem coords1_0 : ∀ t : Fin cfg1.N, (grid1.coords t 0).val = t.val / 8 :=
  (by decide +kernel : ∀ t : Fin grid1.N, (grid1.coords t 0).val = t.val / 8)
theorem coords1_1 : ∀ t : Fin cfg1.N, (grid1.coords t 1).val = t.val % 8 :=
  (by decide +kernel : ∀ t : Fin grid1.N, (grid1.coords t 1).val = t.val % 8)

/-! ## Where the windows are live -/

/-- The output window is stored into at every point (one of the two branches is taken). -/
theorem liveAt1_2 : ∀ t : Fin cfg1.N, cfg1.idle 2 (grid1.coords t) = false := by decide +kernel

/-! ## The body's accesses: each is the whole staging buffer -/

abbrev r1_0 : Rect S512x1024 := Rect.unit (s := S512x1024) ![0, 0] S512x1024.size inb_S512x1024_S512x1024_0_0
abbrev r1_1 : Rect S1024x512 := Rect.unit (s := S1024x512) ![0, 0] S1024x512.size inb_S1024x512_S1024x512_0_0
abbrev r1_2 : Rect S512x512 := Rect.unit (s := S512x512) ![0, 0] S512x512.size inb_S512x512_S512x512_0_0

end Cert.Kernel.Hand

end
-- ==== Proof.K.R1Frame.lean ====
/- Region 1 (the masked product of the two intermediate arrays): what each of the body's two branches leaves in the output block, the body's triple in each branch, the proof data of the pipeline at the region's entry contents, and its body obligation. -/
import proofs.«145582_j70995809403345_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body leaves in the output window's buffer

Each branch stores the whole 512 × 512 block once. -/

/-- The first branch (column-block ≤ row-block): the product of the two input blocks, kept strictly below the
    diagonal of the whole array and zero elsewhere. -/
def out1_A (i : grid1.Coords) (x0 : Vec F S512x1024 .bf16) (x1 : Vec F S1024x512 .bf16) : Vec F S512x512 .f32 :=
  View.canon [⟨r1_2, k1_pay1 i (View.ld x0 r1_0) (View.ld x1 r1_1)⟩]

/-- The second branch (column-block > row-block): zeros. -/
def out1_B : Vec F S512x512 .f32 :=
  View.canon [⟨r1_2, k1_pay2 (F := F)⟩]

/-- The single store tiles the buffer, so it covers it. -/
theorem cover1_2 (p0 : Vec F S512x512 .f32) (y : S512x512.Idx) :
    ∃ pc ∈ ([⟨r1_2, p0⟩] : List (View.Piece (Elt F) S512x512 .f32)), y ∈ pc.1.set :=
  View.cover_of_tiled [⟨r1_2, p0⟩] S512x512.size (by rfl) y

/-! ## The body's triple, branch by branch -/

set_option maxHeartbeats 1000000 in
/-- In the first branch the body, on whole staging memrefs — the inputs' at contents `x0`, `x1`, the output's at
    anything — runs to the continuation holding the inputs' as they were and the output's at `out1_A`. -/
theorem sound_kernel1_A (c : Dev nD) (E : Set ℕ) (i : grid1.Coords)
    (arg2 : Memref sig .tc .vmem S512x1024 .bf16) (harg2 : arg2.IsWhole) (arg3 : Memref sig .tc .vmem S1024x512 .bf16) (harg3 : arg3.IsWhole)
    (arg4 : Memref sig .tc .vmem S512x512 .f32) (harg4 : arg4.IsWhole) (hc1 : k1_cond1 i = 1#1) (hc2 : ¬k1_cond2 i = 1#1)
    (x0 : Vec F S512x1024 .bf16) (x1 : Vec F S1024x512 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_A i x0 x1)) -∗ K ⟨⟩))
      ⊢ wp frame (wpE (defs₀ (F := F)) Variants.none c none) E (cc1__mm_mask_kernel i arg2 harg2 arg3 harg3 arg4 harg4) K := by
  simp only [cc1__mm_mask_kernel_eq_skeleton]; unfold cc1__mm_mask_kernel_skel
  unfold owns
  iintro ⟨⟨%f0, %hf0, H0⟩, ⟨%f1, %hf1, H1⟩, ⟨%d2, %f2, -, H2⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

set_option maxHeartbeats 1000000 in
/-- In the second branch the body reads neither input and leaves the output's buffer at `out1_B`. -/
theorem sound_kernel1_B (c : Dev nD) (E : Set ℕ) (i : grid1.Coords)
    (arg2 : Memref sig .tc .vmem S512x1024 .bf16) (harg2 : arg2.IsWhole) (arg3 : Memref sig .tc .vmem S1024x512 .bf16) (harg3 : arg3.IsWhole)
    (arg4 : Memref sig .tc .vmem S512x512 .f32) (harg4 : arg4.IsWhole) (hc1 : ¬k1_cond1 i = 1#1) (hc2 : k1_cond2 i = 1#1)
    (K : PUnit → sProp 𝕄) :
    iprop((∃ d, owns (c : Thread nD τ) arg4 fullShare d)
        ∗ (owns (c : Thread nD τ) arg4 fullShare (out1_B (F := F)) -∗ K ⟨⟩))
      ⊢ wp frame (wpE (defs₀ (F := F)) Variants.none c none) E (cc1__mm_mask_kernel i arg2 harg2 arg3 harg3 arg4 harg4) K := by
  simp only [cc1__mm_mask_kernel_eq_skeleton]; unfold cc1__mm_mask_kernel_skel
  unfold owns
  iintro ⟨⟨%d2, %f2, -, H2⟩, Hk⟩
  sl_exec (disch := first | exact hc1 | exact hc2)
  sl_step
  iapply Hk
  iexists _; isplitr
  swap; · iexact H2
  ipureintro
  exact View.read_writes_eq_canon _ _ _ (cover1_2 _)

/-! ## The pipeline's proof data -/

/-- What the body leaves in the output block at point `t`: the branch the point is in. -/
def out1 (c : Dev nD) (t : Fin cfg1.N) : Vec F S512x512 .f32 :=
  if t.val % 8 ≤ t.val / 8 then out1_A (grid1.coords t) (iblk1 V c 0 t) (iblk1 V c 1 t) else out1_B

/-- The proof data of pipeline 1 on core `c`: the arrays as the region finds them (`V`); after the body at point
    `t` each input's buffer at its block and the output's at what the point's branch stores; the invariant the
    scoped rest and the generator register, untouched (the kernel has no scratch); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1600000 in
/-- The body at any point: the inputs' memrefs hold their blocks; the closed forms of the two conditions say which
    branch the point is in, and that branch's triple applies; the invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [show (dat1 V c).leavesExact 2 t = owns (c : Thread nD τ) (st1_2 t) fullShare ((dat1 V c).after 2 t) from by
    unfold Dat.leavesExact; rw [liveAt1_2 t], after1_2]
  unfold out1
  by_cases h : t.val % 8 ≤ t.val / 8
  · rw [if_pos h]
    iintro ⟨HΦ, Ho, ⟨%d0, H0⟩, ⟨%d1, H1⟩, ⟨%d2, H2⟩⟩
    iapply (sound_kernel1_A c Set.univ (grid1.coords t) _ _ _ _ _ _ ((hcond1_1 t).mpr h)
      (fun h2 => absurd ((hcond1_2 t).mp h2) (by omega)) (iblk1 V c 0 t) (iblk1 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [if_neg h]
    iintro ⟨HΦ, Ho, ⟨%d0, H0⟩, ⟨%d1, H1⟩, ⟨%d2, H2⟩⟩
    iapply (sound_kernel1_B c Set.univ (grid1.coords t) _ _ _ _ _ _ (fun h1 => h ((hcond1_1 t).mp h1))
      ((hcond1_2 t).mpr (by omega)) _)
    isplitl [H2]; · iexists _; iexact H2
    iintro H2
    isplitl [HΦ]; · iexact HΦ
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : (Pipeline.ΦA spec1 c : sProp 𝕄) ⊢ (dat1 V c).Φ 0 := by
  dsimp only [dat1]; exact .rfl

/-- and the invariant after the last point gives it back. -/
theorem hout1 (c : Dev nD) : (dat1 V c).Φ (Fin.last cfg1.N) ⊢ (Pipeline.ΦA spec1 c : sProp 𝕄) := by
  dsimp only [dat1]; exact .rfl

end Cert.Kernel.Hand

end
-- ==== Proof.K.Run.lean ====
/- The run of @main over its two kernel regions: the buffers' contents at each boundary (a fold from the launch
   memory), the regions as segments over the thread state "every unscoped buffer at the boundary's contents, the
   generator register at some state, nothing owed", and the launch: every weakly fair execution terminates with
   every unscoped buffer at the last boundary's contents. -/
import proofs.«145582_j70995809403345_2_alg».proof.Proof.K.R0Frame
import proofs.«145582_j70995809403345_2_alg».proof.Proof.K.R1Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary: a fold through @main -/

/-- Core `c`'s buffers at launch. -/
abbrev W0 : Dev nD → Valuation τ sig (Elt F) := fun c b => (s₀ m ρ).mem ((c : Dev nD), b)
/-- After the two host operations (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, region 1's entry contents). -/
abbrev V2 : (c : Dev nD) → (b : Ref sig .tc) → Buf (Elt F) ((c : Thread nD τ).loc b) := fun c b => W2 m ρ c b
/-- At region 0's exit each of its arrays holds what the pipeline leaves and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### What the fold holds at the buffers the value is read from -/

/-- The last boundary holds, at region 1's output array, what that pipeline leaves there. -/
theorem W3_main_v3 (c : Dev nD) : W3 m ρ c (Proc.devRef .tc main_v3) = (dat1 (V2 m ρ) c).arrAt 2 cfg1.N :=
  W3_arr m ρ c 2
/-- Region 1 is entered with region 0's two output arrays at what that pipeline leaves there. -/
theorem V2_main_v2_0 (c : Dev nD) : V2 m ρ c main_v2_0 = (dat0 (V1 m ρ) c).arrAt 3 cfg0.N :=
  W2_arr m ρ c 3
theorem V2_main_v2_1 (c : Dev nD) : V2 m ρ c main_v2_1 = (dat0 (V1 m ρ) c).arrAt 4 cfg0.N :=
  W2_arr m ρ c 4

/-- No host operation writes an argument. -/
theorem W1_of_not_written (c : Dev nD) (b : Ref sig .tc) (h0 : b ≠ main_v0) (h1 : b ≠ main_v1) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    exact ⟨StableHlo.devRef_ne_of_ne h0, StableHlo.devRef_ne_of_ne h1⟩))

/-- Region 0 is entered with its two argument windows' arrays as launched. -/
theorem V1_main_arg1 (c : Dev nD) : V1 m ρ c main_arg1 = m ((c : Thread nD τ).loc main_arg1) :=
  W1_of_not_written m ρ c main_arg1 (by decide) (by decide)
theorem V1_main_arg2 (c : Dev nD) : V1 m ρ c main_arg2 = m ((c : Thread nD τ).loc main_arg2) :=
  W1_of_not_written m ρ c main_arg2 (by decide) (by decide)

/-- Region 0 is entered with its first window's array at the two host operations' result: the launch contents of
    argument 0 sliced from row 1 on, read at the two-axis shape. -/
theorem V1_main_v1 (c : Dev nD) : (V1 m ρ c main_v1 : S4096x4096.Idx → Elt F .f32)
    = shapeCast _ (extractStridedSlice S1x4096x4096 ![0, 1, 0] (m ((c : Thread nD τ).loc main_arg0))
        slices_S1x4097x4096_S1x4096x4096_0_1_0) shapeCasts_S1x4096x4096_S4096x4096 := by
  dsimp only [V1, W1, W0, hostOps0]; after_results; rfl

/-! ### The arguments end as launched: no host operation and no region writes one (a region reads it through an
    input window or bypasses it), so the fold at an argument's buffer walks back to the launch memory -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_not_written m ρ c main_arg0 (by decide) (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = m ((c : Thread nD τ).loc main_arg1) := V1_main_arg1 m ρ c
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = m ((c : Thread nD τ).loc main_arg2) := V1_main_arg2 m ρ c

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither host operation allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W3`, the
    generator register at some state. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 over the thread state: its arrays split out of the unscoped buffers and put back at the exit
    contents; the generator register and the scoped buffers no window stages into the region's invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine (?_ : _ ⊢ (Pipeline.ΦA spec0 c : sProp 𝕄)).trans (hin0 (V1 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V1 m ρ) c).Φ (Fin.last cfg0.N) from rfl]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 over the thread state: its arrays split out of the unscoped buffers and put back at the exit
    contents; the generator register and the scoped buffers no window stages into the region's invariant and out;
    nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun w => A_eq1 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine (?_ : _ ⊢ (Pipeline.ΦA spec1 c : sProp 𝕄)).trans (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: the host stretch from the launch contents, then the two kernel regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has every unscoped buffer at the last boundary's
    contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every final state has the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.Kernel.Hand

end
-- ==== Proof.KI.R0Runs.lean ====
/- Region 0 (the fused X·P and Q·Xᵀ accumulation): what its per-case runs and its proof data share — the windows' blocks
   read off the region's entry contents, the two branch conditions of the body in closed form over the grid
   (the accumulators are zeroed where the reduction coordinate is 0 and cast out where it is 15), where the two output
   windows are idle, and the scratch accumulators as memrefs. -/
import proofs.«145582_j70995809403345_2_alg».proof.Proof.Gen.KernelIdeal.Launch
import proofs.«145582_j70995809403345_2_alg».proof.Proof.Gen.KernelIdeal.Skeleton
import proofs.«145582_j70995809403345_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The reduction coordinate is 0: the accumulators are zeroed first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The reduction coordinate is 15, the last: the accumulators are cast into the output windows. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last reduction step nothing is stored into the output windows, and they are not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

/-- One staging buffer of each output window, through which its contents are stated. -/
abbrev VO0_3 : View sig .tc .vmem S1024x1024 .bf16 := (Memref.whole cc0_stg3_0 : Memref sig .tc .vmem S1024x1024 .bf16).view
abbrev VO0_4 : View sig .tc .vmem S1024x1024 .bf16 := (Memref.whole cc0_stg4_0 : Memref sig .tc .vmem S1024x1024 .bf16).view
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
/-- The two accumulators: whole scoped buffers of the kernel's own. -/
abbrev scM0_0 : Memref sig .tc .vmem S1024x1024 .f32 := Memref.whole cc0_scratch0
abbrev scM0_1 : Memref sig .tc .vmem S1024x1024 .f32 := Memref.whole cc0_scratch1
abbrev VS0_0 : View sig .tc .vmem S1024x1024 .f32 := scM0_0.view
abbrev VS0_1 : View sig .tc .vmem S1024x1024 .f32 := scM0_1.view

/-- The scoped buffers of the core that are neither a staging buffer of this region nor an accumulator (the other
    region's staging buffers), each at some contents. -/
abbrev otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ otherScoped0 c) ∗ (∃ r, prngReg c r)) := by
  unfold Pipeline.ΦA; rw [scopedRest0_eq]; simp only [scM0_0, scM0_1, owns_whole]; try rfl

end Cert.KernelIdeal.Hand

end
-- ==== Proof.KI.R0RunA.lean ====
/- Region 0, the body's run where the reduction coordinate is 0 (the accumulators zeroed, then added to): on whole staging memrefs the body runs to the end, leaving the three input blocks as they
   were, each accumulator with the pieces it stored (found by running the body), and the two output buffers
   untouched. -/
import proofs.«145582_j70995809403345_2_alg».proof.Proof.KI.R0Runs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun0_A (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x256 .f32) (x1 : Vec F S256x1024 .f32) (x2 : Vec F S1024x256 .f32) :
    Σ' (L3 : List (View.Piece (Elt F) S1024x1024 .bf16)) (L4 : List (View.Piece (Elt F) S1024x1024 .bf16)) (LS0 : List (View.Piece (Elt F) S1024x1024 .f32)), { LS1 : List (View.Piece (Elt F) S1024x1024 .f32) //
      ∀ (xi3 : Vec F S1024x1024 .bf16) (xi4 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__fused_xp_qxt_kernel i arg2 harg2 arg3 harg3 arg4 harg4 arg5 harg5 arg6 harg6 arg7 harg7 arg8 harg8) K } := by
  refine ⟨[], [], ?_, ?_, fun xi3 xi4 E K => ?run⟩
  case run =>
    simp only [cc0__fused_xp_qxt_kernel_eq_skeleton]; unfold cc0__fused_xp_qxt_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KI.R0RunB.lean ====
/- Region 0, the body's run where the reduction coordinate is neither 0 nor 15 (the accumulators added to): on whole staging memrefs the body runs to the end, leaving the three input blocks as they
   were, each accumulator with the pieces it stored (found by running the body), and the two output buffers
   untouched. -/
import proofs.«145582_j70995809403345_2_alg».proof.Proof.KI.R0Runs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun0_B (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x256 .f32) (x1 : Vec F S256x1024 .f32) (x2 : Vec F S1024x256 .f32) (xs0 : Vec F S1024x1024 .f32) (xs1 : Vec F S1024x1024 .f32) :
    Σ' (L3 : List (View.Piece (Elt F) S1024x1024 .bf16)) (L4 : List (View.Piece (Elt F) S1024x1024 .bf16)) (LS0 : List (View.Piece (Elt F) S1024x1024 .f32)), { LS1 : List (View.Piece (Elt F) S1024x1024 .f32) //
      ∀ (xi3 : Vec F S1024x1024 .bf16) (xi4 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__fused_xp_qxt_kernel i arg2 harg2 arg3 harg3 arg4 harg4 arg5 harg5 arg6 harg6 arg7 harg7 arg8 harg8) K } := by
  refine ⟨[], [], ?_, ?_, fun xi3 xi4 E K => ?run⟩
  case run =>
    simp only [cc0__fused_xp_qxt_kernel_eq_skeleton]; unfold cc0__fused_xp_qxt_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KI.R0RunC.lean ====
/- Region 0, the body's run where the reduction coordinate is 15 (the accumulators added to, then cast into the outputs): on whole staging memrefs the body runs to the end, leaving the three input blocks as they
   were, each accumulator with the pieces it stored (found by running the body), and the two output buffers
   with the pieces stored into them. -/
import proofs.«145582_j70995809403345_2_alg».proof.Proof.KI.R0Runs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun0_C (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x256 .f32) (x1 : Vec F S256x1024 .f32) (x2 : Vec F S1024x256 .f32) (xs0 : Vec F S1024x1024 .f32) (xs1 : Vec F S1024x1024 .f32) :
    Σ' (L3 : List (View.Piece (Elt F) S1024x1024 .bf16)) (L4 : List (View.Piece (Elt F) S1024x1024 .bf16)) (LS0 : List (View.Piece (Elt F) S1024x1024 .f32)), { LS1 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__fused_xp_qxt_kernel i arg2 harg2 arg3 harg3 arg4 harg4 arg5 harg5 arg6 harg6 arg7 harg7 arg8 harg8) K } := by
  refine ⟨?_, ?_, ?_, ?_, fun E K => ?run⟩
  case run =>
    simp only [cc0__fused_xp_qxt_kernel_eq_skeleton]; unfold cc0__fused_xp_qxt_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.KernelIdeal.Hand

end
-- ==== Proof.KI.R0Frame.lean ====
/- Region 0 (the fused X·P and Q·Xᵀ accumulation): what the two output buffers and the two accumulators hold after each grid
   point (by recursion on the point: zeroed and added to where the reduction coordinate is 0, added to at the others, the
   outputs the accumulators' casts where it is 15), the proof data, and the body obligation point by point. -/
import proofs.«145582_j70995809403345_2_alg».proof.Proof.KI.R0RunA
import proofs.«145582_j70995809403345_2_alg».proof.Proof.KI.R0RunB
import proofs.«145582_j70995809403345_2_alg».proof.Proof.KI.R0RunC
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pieces each run leaves cover their buffers -/

theorem scover0_A_0 (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x256 .f32) (x1 : Vec F S256x1024 .f32) (x2 : Vec F S1024x256 .f32) (y : S1024x1024.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL (kernelRun0_A c i arg2 harg2 arg3 harg3 arg4 harg4 arg5 harg5 arg6 harg6 arg7 harg7 arg8 harg8 hc0 hc1 x0 x1 x2).2.2.1 S1024x1024.size (by sl_kernel_rfl) y

theorem scover0_A_1 (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x256 .f32) (x1 : Vec F S256x1024 .f32) (x2 : Vec F S1024x256 .f32) (y : S1024x1024.Idx) :
    ∃ pc ∈ (kernelRun0_A c i arg2 harg2 arg3 harg3 arg4 harg4 arg5 harg5 arg6 harg6 arg7 harg7 arg8 harg8 hc0 hc1 x0 x1 x2).2.2.2.1, y ∈ pc.1.set :=
  View.cover_of_tiledL (kernelRun0_A c i arg2 harg2 arg3 harg3 arg4 harg4 arg5 harg5 arg6 harg6 arg7 harg7 arg8 harg8 hc0 hc1 x0 x1 x2).2.2.2.1 S1024x1024.size (by sl_kernel_rfl) y

theorem scover0_B_0 (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x256 .f32) (x1 : Vec F S256x1024 .f32) (x2 : Vec F S1024x256 .f32) (xs0 : Vec F S1024x1024 .f32) (xs1 : Vec F S1024x1024 .f32) (y : S1024x1024.Idx) :
    ∃ pc ∈ (kernelRun0_B c i arg2 harg2 arg3 harg3 arg4 harg4 arg5 harg5 arg6 harg6 arg7 harg7 arg8 harg8 hc0 hc1 x0 x1 x2 xs0 xs1).2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.1 S1024x1024.size (by sl_kernel_rfl) y

theorem scover0_B_1 (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x256 .f32) (x1 : Vec F S256x1024 .f32) (x2 : Vec F S1024x256 .f32) (xs0 : Vec F S1024x1024 .f32) (xs1 : Vec F S1024x1024 .f32) (y : S1024x1024.Idx) :
    ∃ pc ∈ (kernelRun0_B c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.2.1 S1024x1024.size (by sl_kernel_rfl) y

theorem scover0_C_0 (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x256 .f32) (x1 : Vec F S256x1024 .f32) (x2 : Vec F S1024x256 .f32) (xs0 : Vec F S1024x1024 .f32) (xs1 : Vec F S1024x1024 .f32) (y : S1024x1024.Idx) :
    ∃ pc ∈ (kernelRun0_C c i arg2 harg2 arg3 harg3 arg4 harg4 arg5 harg5 arg6 harg6 arg7 harg7 arg8 harg8 hc0 hc1 x0 x1 x2 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.1 S1024x1024.size (by sl_kernel_rfl) y

theorem scover0_C_1 (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x256 .f32) (x1 : Vec F S256x1024 .f32) (x2 : Vec F S1024x256 .f32) (xs0 : Vec F S1024x1024 .f32) (xs1 : Vec F S1024x1024 .f32) (y : S1024x1024.Idx) :
    ∃ pc ∈ (kernelRun0_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.2.1 S1024x1024.size (by sl_kernel_rfl) y

theorem cover0_C_3 (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x256 .f32) (x1 : Vec F S256x1024 .f32) (x2 : Vec F S1024x256 .f32) (xs0 : Vec F S1024x1024 .f32) (xs1 : Vec F S1024x1024 .f32) (y : S1024x1024.Idx) :
    ∃ pc ∈ (kernelRun0_C c i arg2 harg2 arg3 harg3 arg4 harg4 arg5 harg5 arg6 harg6 arg7 harg7 arg8 harg8 hc0 hc1 x0 x1 x2 xs0 xs1).1, y ∈ pc.1.set :=
  View.cover_of_tiledL (kernelRun0_C c i arg2 harg2 arg3 harg3 arg4 harg4 arg5 harg5 arg6 harg6 arg7 harg7 arg8 harg8 hc0 hc1 x0 x1 x2 xs0 xs1).1 S1024x1024.size (by sl_kernel_rfl) y

theorem cover0_C_4 (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x256 .f32) (x1 : Vec F S256x1024 .f32) (x2 : Vec F S1024x256 .f32) (xs0 : Vec F S1024x1024 .f32) (xs1 : Vec F S1024x1024 .f32) (y : S1024x1024.Idx) :
    ∃ pc ∈ (kernelRun0_C c i arg2 harg2 arg3 harg3 arg4 harg4 arg5 harg5 arg6 harg6 arg7 harg7 arg8 harg8 hc0 hc1 x0 x1 x2 xs0 xs1).2.1, y ∈ pc.1.set :=
  View.cover_of_tiledL (kernelRun0_C c i arg2 harg2 arg3 harg3 arg4 harg4 arg5 harg5 arg6 harg6 arg7 harg7 arg8 harg8 hc0 hc1 x0 x1 x2 xs0 xs1).2.1 S1024x1024.size (by sl_kernel_rfl) y

/-- What the run A leaves, as contents: the two output buffers and the two accumulators, each its pieces read back. -/
def cont0_A (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x256 .f32) (x1 : Vec F S256x1024 .f32) (x2 : Vec F S1024x256 .f32) :
    Vec F S1024x1024 .bf16 × Vec F S1024x1024 .bf16 × Vec F S1024x1024 .f32 × Vec F S1024x1024 .f32 :=
  (VO0_3.read (Elt F) (VO0_3.writes (Elt F) VO0_3.junk (kernelRun0_A c i arg2 harg2 arg3 harg3 arg4 harg4 arg5 harg5 arg6 harg6 arg7 harg7 arg8 harg8 hc0 hc1 x0 x1 x2).1),
   VO0_4.read (Elt F) (VO0_4.writes (Elt F) VO0_4.junk (kernelRun0_A c i arg2 harg2 arg3 harg3 arg4 harg4 arg5 harg5 arg6 harg6 arg7 harg7 arg8 harg8 hc0 hc1 x0 x1 x2).2.1),
   VS0_0.read (Elt F) (VS0_0.writes (Elt F) VS0_0.junk (kernelRun0_A c i arg2 harg2 arg3 harg3 arg4 harg4 arg5 harg5 arg6 harg6 arg7 harg7 arg8 harg8 hc0 hc1 x0 x1 x2).2.2.1),
   VS0_1.read (Elt F) (VS0_1.writes (Elt F) VS0_1.junk (kernelRun0_A c i arg2 harg2 arg3 harg3 arg4 harg4 arg5 harg5 arg6 harg6 arg7 harg7 arg8 harg8 hc0 hc1 x0 x1 x2).2.2.2.1))

/-- What the run B leaves, as contents: the two output buffers and the two accumulators, each its pieces read back. -/
def cont0_B (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x256 .f32) (x1 : Vec F S256x1024 .f32) (x2 : Vec F S1024x256 .f32) (xs0 : Vec F S1024x1024 .f32) (xs1 : Vec F S1024x1024 .f32) :
    Vec F S1024x1024 .bf16 × Vec F S1024x1024 .bf16 × Vec F S1024x1024 .f32 × Vec F S1024x1024 .f32 :=
  (VO0_3.read (Elt F) (VO0_3.writes (Elt F) VO0_3.junk (kernelRun0_B c i arg2 harg2 arg3 harg3 arg4 harg4 arg5 harg5 arg6 harg6 arg7 harg7 arg8 harg8 hc0 hc1 x0 x1 x2 xs0 xs1).1),
   VO0_4.read (Elt F) (VO0_4.writes (Elt F) VO0_4.junk (kernelRun0_B c i arg2 harg2 arg3 harg3 arg4 harg4 arg5 harg5 arg6 harg6 arg7 harg7 arg8 harg8 hc0 hc1 x0 x1 x2 xs0 xs1).2.1),
   VS0_0.read (Elt F) (VS0_0.writes (Elt F) VS0_0.junk (kernelRun0_B c i arg2 harg2 arg3 harg3 arg4 harg4 arg5 harg5 arg6 harg6 arg7 harg7 arg8 harg8 hc0 hc1 x0 x1 x2 xs0 xs1).2.2.1),
   VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1).2.2.2.1))

/-- What the run C leaves, as contents: the two output buffers and the two accumulators, each its pieces read back. -/
def cont0_C (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x256 .f32) (x1 : Vec F S256x1024 .f32) (x2 : Vec F S1024x256 .f32) (xs0 : Vec F S1024x1024 .f32) (xs1 : Vec F S1024x1024 .f32) :
    Vec F S1024x1024 .bf16 × Vec F S1024x1024 .bf16 × Vec F S1024x1024 .f32 × Vec F S1024x1024 .f32 :=
  (VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1).1),
   VO0_4.read (Elt F) (VO0_4.writes (Elt F) VO0_4.junk (kernelRun0_C c i arg2 harg2 arg3 harg3 arg4 harg4 arg5 harg5 arg6 harg6 arg7 harg7 arg8 harg8 hc0 hc1 x0 x1 x2 xs0 xs1).2.1),
   VS0_0.read (Elt F) (VS0_0.writes (Elt F) VS0_0.junk (kernelRun0_C c i arg2 harg2 arg3 harg3 arg4 harg4 arg5 harg5 arg6 harg6 arg7 harg7 arg8 harg8 hc0 hc1 x0 x1 x2 xs0 xs1).2.2.1),
   VS0_1.read (Elt F) (VS0_1.writes (Elt F) VS0_1.junk (kernelRun0_C c i arg2 harg2 arg3 harg3 arg4 harg4 arg5 harg5 arg6 harg6 arg7 harg7 arg8 harg8 hc0 hc1 x0 x1 x2 xs0 xs1).2.2.2.1))

/-! ## What the buffers hold after each point -/

/-- THE ACCUMULATION: the two output buffers and the two accumulators after the body at position `n`: the run the closed
    forms select at `n`, on the point's input blocks and (past a reduction's first step) on the accumulators the point
    before left. (An idle output's component is a placeholder nothing consults.) -/
def outsAt0 (c : Dev nD) : (n : ℕ) → n < cfg0.N → Vec F S1024x1024 .bf16 × Vec F S1024x1024 .bf16 × Vec F S1024x1024 .f32 × Vec F S1024x1024 .f32
  | 0, hn => cont0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩)
  | n + 1, hn =>
    if h0 : (n + 1) % 16 = 0 then
      if h1 : (n + 1) % 16 = 15 then
        False.elim (by omega)
      else
        cont0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩)
    else
      if h1 : (n + 1) % 16 = 15 then
        cont0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2
      else
        cont0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2

/-- The accumulators the point before `t` left (for a point that is not a reduction's first). -/
abbrev prev0 (c : Dev nD) (t : Fin cfg0.N) : Vec F S1024x1024 .bf16 × Vec F S1024x1024 .bf16 × Vec F S1024x1024 .f32 × Vec F S1024x1024 .f32 :=
  outsAt0 V c (t.val - 1) (Nat.lt_of_le_of_lt (Nat.sub_le _ _) t.isLt)

theorem outsAt0_A (c : Dev nD) (t : Fin cfg0.N) (h0 : t.val % 16 = 0) (h1 : ¬t.val % 16 = 15) :
    outsAt0 V c t.val t.isLt = cont0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = cont0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (prev0 V c t).2.2.1 (prev0 V c t).2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = cont0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (prev0 V c t).2.2.1 (prev0 V c t).2.2.2 := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no staging
    buffer of this region at anything); afterwards the two accumulators at what the point before left, the other scoped
    buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ otherScoped0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ otherScoped0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ otherScoped0 c) ∗ (∃ r, prngReg c r)) := by
  cases n with
  | zero => exact absurd rfl hz
  | succ n => rfl

/-! ## The pipeline's proof data -/

/-- The proof data of pipeline 0 on core `c`: the arrays as the region finds them; after the body at point `t` each
    input's buffer at its block, the outputs' at `outsAt0`'s components; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 8000000 in
/-- The body at any point: the inputs' memrefs hold their blocks; the closed forms say which run the point is in; the
    invariant hands the body the accumulators at what the point before left (at anything before the first point) and takes
    them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  have hN : t.val < 64 := lt_of_lt_of_eq t.isLt (show cfg0.N = 64 from N_0)
  by_cases h0 : t.val % 16 = 0
  · have h1 : ¬t.val % 16 = 15 := by omega
    have hnc1 : ¬cond0_1 (grid0.coords t) := fun h => h1 ((hcond0_1 t).mp h)
    rw [Dat.leavesExact_idle (dat0 V c) 3 t (idleAt0_3 t hnc1) (noFlush0_3 t hnc1),
      Dat.leavesExact_idle (dat0 V c) 4 t (idleAt0_4 t hnc1) (noFlush0_4 t hnc1)]
    rw [outsAt0_A V c t h0 h1]
    unfold cont0_A; (try dsimp only)
    by_cases hz : t.val = 0
    · rw [PhiS_castSucc V c t, PhiS_zero V c _ _ hz, PhiA0_eq]
      iintro ⟨⟨⟨HS0, HS1, Hoth⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ ((hcond0_0 t).mpr h0) hnc1 (iblk0 V c 0 t) (iblk0 V c 1 t) (iblk0 V c 2 t)).2.2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4
    · rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ ((hcond0_0 t).mpr h0) hnc1 (iblk0 V c 0 t) (iblk0 V c 1 t) (iblk0 V c 2 t)).2.2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    have hnc0 : ¬cond0_0 (grid0.coords t) := fun h => h0 ((hcond0_0 t).mp h)
    by_cases h1 : t.val % 16 = 15
    · have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3]
      rw [show (dat0 V c).leavesExact 4 t = owns (c : Thread nD τ) (ms0_4 t) fullShare ((dat0 V c).after 4 t) from by
        unfold Dat.leavesExact; rw [liveAt0_4 t hc1], after0_4]
      rw [outsAt0_C V c t h0 h1]
      unfold cont0_C; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ hnc0 hc1 (iblk0 V c 0 t) (iblk0 V c 1 t) (iblk0 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _ _)
      unfold owns; iexists _; isplitr
      swap; · iexact H4
      ipureintro; exact View.read_writes_of_cover _ _ _ _ _ (cover0_C_4 c _ _ _ _ _ _ _ _ _ _ _ _ _ _ _ _ _ _ _ _ _ _)
    · have hnc1 : ¬cond0_1 (grid0.coords t) := fun h => h1 ((hcond0_1 t).mp h)
      rw [Dat.leavesExact_idle (dat0 V c) 3 t (idleAt0_3 t hnc1) (noFlush0_3 t hnc1),
        Dat.leavesExact_idle (dat0 V c) 4 t (idleAt0_4 t hnc1) (noFlush0_4 t hnc1)]
      rw [outsAt0_B V c t h0 h1]
      unfold cont0_B; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ hnc0 hnc1 (iblk0 V c 0 t) (iblk0 V c 1 t) (iblk0 V c 2 t) _ _).2.2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulators' named contents are forgotten. -/
theorem hout0 (c : Dev nD) : (dat0 V c).Φ (Fin.last cfg0.N) ⊢ (Pipeline.ΦA spec0 c : sProp 𝕄) := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS0, HS1, Hoth⟩, Hg⟩
  isplitr [Hg]
  · isplitl [HS0]; · iexists _; iexact HS0
    isplitl [HS1]; · iexists _; iexact HS1
    iexact Hoth
  iexact Hg

end Cert.KernelIdeal.Hand

end
-- ==== Proof.KI.R1Runs.lean ====
/- Region 1 (the masked product of the two intermediate arrays): the windows' blocks, the body's two branch conditions in closed form over the grid, where the output window is live, and the body's accesses. -/
import proofs.«145582_j70995809403345_2_alg».proof.Proof.Gen.KernelIdeal.Launch
import proofs.«145582_j70995809403345_2_alg».proof.Proof.Gen.KernelIdeal.Skeleton
import proofs.«145582_j70995809403345_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, in closed form over the grid

Point `t` of the 8 × 8 grid has row-block `t / 8` and column-block `t % 8`. The first branch (the masked product) is
taken when the column-block is at most the row-block, the second (all zeros) when it is greater: exactly one holds. -/

theorem hcond1_1 : ∀ t : Fin cfg1.N, k1_cond1 (grid1.coords t) = 1#1 ↔ t.val % 8 ≤ t.val / 8 :=
  (by decide +kernel : ∀ t : Fin grid1.N, k1_cond1 (grid1.coords t) = 1#1 ↔ t.val % 8 ≤ t.val / 8)

theorem hcond1_2 : ∀ t : Fin cfg1.N, k1_cond2 (grid1.coords t) = 1#1 ↔ t.val / 8 < t.val % 8 :=
  (by decide +kernel : ∀ t : Fin grid1.N, k1_cond2 (grid1.coords t) = 1#1 ↔ t.val / 8 < t.val % 8)

/-- The grid coordinates of point `t`: row-block `t / 8`, column-block `t % 8`. -/
theorem coords1_0 : ∀ t : Fin cfg1.N, (grid1.coords t 0).val = t.val / 8 :=
  (by decide +kernel : ∀ t : Fin grid1.N, (grid1.coords t 0).val = t.val / 8)
theorem coords1_1 : ∀ t : Fin cfg1.N, (grid1.coords t 1).val = t.val % 8 :=
  (by decide +kernel : ∀ t : Fin grid1.N, (grid1.coords t 1).val = t.val % 8)

/-! ## Where the windows are live -/

/-- The output window is stored into at every point (one of the two branches is taken). -/
theorem liveAt1_2 : ∀ t : Fin cfg1.N, cfg1.idle 2 (grid1.coords t) = false := by decide +kernel

/-! ## The body's accesses: each is the whole staging buffer -/

abbrev r1_0 : Rect S512x1024 := Rect.unit (s := S512x1024) ![0, 0] S512x1024.size inb_S512x1024_S512x1024_0_0
abbrev r1_1 : Rect S1024x512 := Rect.unit (s := S1024x512) ![0, 0] S1024x512.size inb_S1024x512_S1024x512_0_0
abbrev r1_2 : Rect S512x512 := Rect.unit (s := S512x512) ![0, 0] S512x512.size inb_S512x512_S512x512_0_0

end Cert.KernelIdeal.Hand

end
-- ==== Proof.KI.R1Frame.lean ====
/- Region 1 (the masked product of the two intermediate arrays): what each of the body's two branches leaves in the output block, the body's triple in each branch, the proof data of the pipeline at the region's entry contents, and its body obligation. -/
import proofs.«145582_j70995809403345_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body leaves in the output window's buffer

Each branch stores the whole 512 × 512 block once. -/

/-- The first branch (column-block ≤ row-block): the product of the two input blocks, kept strictly below the
    diagonal of the whole array and zero elsewhere. -/
def out1_A (i : grid1.Coords) (x0 : Vec F S512x1024 .bf16) (x1 : Vec F S1024x512 .bf16) : Vec F S512x512 .f32 :=
  View.canon [⟨r1_2, k1_pay1 i (View.ld x0 r1_0) (View.ld x1 r1_1)⟩]

/-- The second branch (column-block > row-block): zeros. -/
def out1_B : Vec F S512x512 .f32 :=
  View.canon [⟨r1_2, k1_pay2 (F := F)⟩]

/-- The single store tiles the buffer, so it covers it. -/
theorem cover1_2 (p0 : Vec F S512x512 .f32) (y : S512x512.Idx) :
    ∃ pc ∈ ([⟨r1_2, p0⟩] : List (View.Piece (Elt F) S512x512 .f32)), y ∈ pc.1.set :=
  View.cover_of_tiled [⟨r1_2, p0⟩] S512x512.size (by rfl) y

/-! ## The body's triple, branch by branch -/

set_option maxHeartbeats 1000000 in
/-- In the first branch the body, on whole staging memrefs — the inputs' at contents `x0`, `x1`, the output's at
    anything — runs to the continuation holding the inputs' as they were and the output's at `out1_A`. -/
theorem sound_kernel1_A (c : Dev nD) (E : Set ℕ) (i : grid1.Coords)
    (arg2 : Memref sig .tc .vmem S512x1024 .bf16) (harg2 : arg2.IsWhole) (arg3 : Memref sig .tc .vmem S1024x512 .bf16) (harg3 : arg3.IsWhole)
    (arg4 : Memref sig .tc .vmem S512x512 .f32) (harg4 : arg4.IsWhole) (hc1 : k1_cond1 i = 1#1) (hc2 : ¬k1_cond2 i = 1#1)
    (x0 : Vec F S512x1024 .bf16) (x1 : Vec F S1024x512 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_A i x0 x1)) -∗ K ⟨⟩))
      ⊢ wp frame (wpE (defs₀ (F := F)) Variants.none c none) E (cc1__mm_mask_kernel i arg2 harg2 arg3 harg3 arg4 harg4) K := by
  simp only [cc1__mm_mask_kernel_eq_skeleton]; unfold cc1__mm_mask_kernel_skel
  unfold owns
  iintro ⟨⟨%f0, %hf0, H0⟩, ⟨%f1, %hf1, H1⟩, ⟨%d2, %f2, -, H2⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

set_option maxHeartbeats 1000000 in
/-- In the second branch the body reads neither input and leaves the output's buffer at `out1_B`. -/
theorem sound_kernel1_B (c : Dev nD) (E : Set ℕ) (i : grid1.Coords)
    (arg2 : Memref sig .tc .vmem S512x1024 .bf16) (harg2 : arg2.IsWhole) (arg3 : Memref sig .tc .vmem S1024x512 .bf16) (harg3 : arg3.IsWhole)
    (arg4 : Memref sig .tc .vmem S512x512 .f32) (harg4 : arg4.IsWhole) (hc1 : ¬k1_cond1 i = 1#1) (hc2 : k1_cond2 i = 1#1)
    (K : PUnit → sProp 𝕄) :
    iprop((∃ d, owns (c : Thread nD τ) arg4 fullShare d)
        ∗ (owns (c : Thread nD τ) arg4 fullShare (out1_B (F := F)) -∗ K ⟨⟩))
      ⊢ wp frame (wpE (defs₀ (F := F)) Variants.none c none) E (cc1__mm_mask_kernel i arg2 harg2 arg3 harg3 arg4 harg4) K := by
  simp only [cc1__mm_mask_kernel_eq_skeleton]; unfold cc1__mm_mask_kernel_skel
  unfold owns
  iintro ⟨⟨%d2, %f2, -, H2⟩, Hk⟩
  sl_exec (disch := first | exact hc1 | exact hc2)
  sl_step
  iapply Hk
  iexists _; isplitr
  swap; · iexact H2
  ipureintro
  exact View.read_writes_eq_canon _ _ _ (cover1_2 _)

/-! ## The pipeline's proof data -/

/-- What the body leaves in the output block at point `t`: the branch the point is in. -/
def out1 (c : Dev nD) (t : Fin cfg1.N) : Vec F S512x512 .f32 :=
  if t.val % 8 ≤ t.val / 8 then out1_A (grid1.coords t) (iblk1 V c 0 t) (iblk1 V c 1 t) else out1_B

/-- The proof data of pipeline 1 on core `c`: the arrays as the region finds them (`V`); after the body at point
    `t` each input's buffer at its block and the output's at what the point's branch stores; the invariant the
    scoped rest and the generator register, untouched (the kernel has no scratch); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1600000 in
/-- The body at any point: the inputs' memrefs hold their blocks; the closed forms of the two conditions say which
    branch the point is in, and that branch's triple applies; the invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [show (dat1 V c).leavesExact 2 t = owns (c : Thread nD τ) (st1_2 t) fullShare ((dat1 V c).after 2 t) from by
    unfold Dat.leavesExact; rw [liveAt1_2 t], after1_2]
  unfold out1
  by_cases h : t.val % 8 ≤ t.val / 8
  · rw [if_pos h]
    iintro ⟨HΦ, Ho, ⟨%d0, H0⟩, ⟨%d1, H1⟩, ⟨%d2, H2⟩⟩
    iapply (sound_kernel1_A c Set.univ (grid1.coords t) _ _ _ _ _ _ ((hcond1_1 t).mpr h)
      (fun h2 => absurd ((hcond1_2 t).mp h2) (by omega)) (iblk1 V c 0 t) (iblk1 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [if_neg h]
    iintro ⟨HΦ, Ho, ⟨%d0, H0⟩, ⟨%d1, H1⟩, ⟨%d2, H2⟩⟩
    iapply (sound_kernel1_B c Set.univ (grid1.coords t) _ _ _ _ _ _ (fun h1 => h ((hcond1_1 t).mp h1))
      ((hcond1_2 t).mpr (by omega)) _)
    isplitl [H2]; · iexists _; iexact H2
    iintro H2
    isplitl [HΦ]; · iexact HΦ
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : (Pipeline.ΦA spec1 c : sProp 𝕄) ⊢ (dat1 V c).Φ 0 := by
  dsimp only [dat1]; exact .rfl

/-- and the invariant after the last point gives it back. -/
theorem hout1 (c : Dev nD) : (dat1 V c).Φ (Fin.last cfg1.N) ⊢ (Pipeline.ΦA spec1 c : sProp 𝕄) := by
  dsimp only [dat1]; exact .rfl

end Cert.KernelIdeal.Hand

end
-- ==== Proof.KI.Run.lean ====
/- The run of @main over its two kernel regions: the buffers' contents at each boundary (a fold from the launch
   memory), the regions as segments over the thread state "every unscoped buffer at the boundary's contents, the
   generator register at some state, nothing owed", and the launch: every weakly fair execution terminates with
   every unscoped buffer at the last boundary's contents. -/
import proofs.«145582_j70995809403345_2_alg».proof.Proof.KI.R0Frame
import proofs.«145582_j70995809403345_2_alg».proof.Proof.KI.R1Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary: a fold through @main -/

/-- Core `c`'s buffers at launch. -/
abbrev W0 : Dev nD → Valuation τ sig (Elt F) := fun c b => (s₀ m ρ).mem ((c : Dev nD), b)
/-- After the two host operations (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, region 1's entry contents). -/
abbrev V2 : (c : Dev nD) → (b : Ref sig .tc) → Buf (Elt F) ((c : Thread nD τ).loc b) := fun c b => W2 m ρ c b
/-- At region 0's exit each of its arrays holds what the pipeline leaves and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### What the fold holds at the buffers the value is read from -/

/-- The last boundary holds, at region 1's output array, what that pipeline leaves there. -/
theorem W3_main_v3 (c : Dev nD) : W3 m ρ c (Proc.devRef .tc main_v3) = (dat1 (V2 m ρ) c).arrAt 2 cfg1.N :=
  W3_arr m ρ c 2
/-- Region 1 is entered with region 0's two output arrays at what that pipeline leaves there. -/
theorem V2_main_v2_0 (c : Dev nD) : V2 m ρ c main_v2_0 = (dat0 (V1 m ρ) c).arrAt 3 cfg0.N :=
  W2_arr m ρ c 3
theorem V2_main_v2_1 (c : Dev nD) : V2 m ρ c main_v2_1 = (dat0 (V1 m ρ) c).arrAt 4 cfg0.N :=
  W2_arr m ρ c 4

/-- No host operation writes an argument. -/
theorem W1_of_not_written (c : Dev nD) (b : Ref sig .tc) (h0 : b ≠ main_v0) (h1 : b ≠ main_v1) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    exact ⟨StableHlo.devRef_ne_of_ne h0, StableHlo.devRef_ne_of_ne h1⟩))

/-- Region 0 is entered with its two argument windows' arrays as launched. -/
theorem V1_main_arg1 (c : Dev nD) : V1 m ρ c main_arg1 = m ((c : Thread nD τ).loc main_arg1) :=
  W1_of_not_written m ρ c main_arg1 (by decide) (by decide)
theorem V1_main_arg2 (c : Dev nD) : V1 m ρ c main_arg2 = m ((c : Thread nD τ).loc main_arg2) :=
  W1_of_not_written m ρ c main_arg2 (by decide) (by decide)

/-- Region 0 is entered with its first window's array at the two host operations' result: the launch contents of
    argument 0 sliced from row 1 on, read at the two-axis shape. -/
theorem V1_main_v1 (c : Dev nD) : (V1 m ρ c main_v1 : S4096x4096.Idx → Elt F .f32)
    = shapeCast _ (extractStridedSlice S1x4096x4096 ![0, 1, 0] (m ((c : Thread nD τ).loc main_arg0))
        slices_S1x4097x4096_S1x4096x4096_0_1_0) shapeCasts_S1x4096x4096_S4096x4096 := by
  dsimp only [V1, W1, W0, hostOps0]; after_results; rfl

/-! ### The arguments end as launched: no host operation and no region writes one (a region reads it through an
    input window or bypasses it), so the fold at an argument's buffer walks back to the launch memory -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_not_written m ρ c main_arg0 (by decide) (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = m ((c : Thread nD τ).loc main_arg1) := V1_main_arg1 m ρ c
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = m ((c : Thread nD τ).loc main_arg2) := V1_main_arg2 m ρ c

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither host operation allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W3`, the
    generator register at some state. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 over the thread state: its arrays split out of the unscoped buffers and put back at the exit
    contents; the generator register and the scoped buffers no window stages into the region's invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine (?_ : _ ⊢ (Pipeline.ΦA spec0 c : sProp 𝕄)).trans (hin0 (V1 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V1 m ρ) c).Φ (Fin.last cfg0.N) from rfl]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 over the thread state: its arrays split out of the unscoped buffers and put back at the exit
    contents; the generator register and the scoped buffers no window stages into the region's invariant and out;
    nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun w => A_eq1 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine (?_ : _ ⊢ (Pipeline.ΦA spec1 c : sProp 𝕄)).trans (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: the host stretch from the launch contents, then the two kernel regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has every unscoped buffer at the last boundary's
    contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every final state has the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.KernelIdeal.Hand

end
-- ==== Proof.KI.R1Pay.lean ====
/- Region 1's two payloads read at an index, over the extended reals: the first branch's block entry (p, q) at grid
   point (m, n) is Σ_e x0[p, e]·x1[e, q] when n·512 + q < m·512 + p (the entry's column is left of its row in the whole
   array) and 0 otherwise; the second branch's block is 0 everywhere. -/
import proofs.«145582_j70995809403345_2_alg».proof.Proof.Gen.KernelIdeal.Skeleton
import Idealize.ShloMosaic.Lib.Pipeline.Value
import Idealize.ShloMosaic.Lib.ValueIdx
import Idealize.ShloMosaic.Lib.WordArith
import Idealize.ShloMosaic.Lib.Affine
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

/-! ## The product at an index -/

theorem lhs1_0 (j : S512x512.Idx) (k : dot_S512x1024_S1024x512_S512x512_1_0_0_1_n_n.contr.Idx) :
    (dot_S512x1024_S1024x512_S512x512_1_0_0_1_n_n.lhsIdx j k 0).val = (j 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhs1_1 (j : S512x512.Idx) (k : dot_S512x1024_S1024x512_S512x512_1_0_0_1_n_n.contr.Idx) :
    (dot_S512x1024_S1024x512_S512x512_1_0_0_1_n_n.lhsIdx j k 1).val = (k ⟨0, by decide⟩).val :=
  dot_S512x1024_S1024x512_S512x512_1_0_0_1_n_n.lhsIdx_val_of_single rfl j k
theorem rhs1_0 (j : S512x512.Idx) (k : dot_S512x1024_S1024x512_S512x512_1_0_0_1_n_n.contr.Idx) :
    (dot_S512x1024_S1024x512_S512x512_1_0_0_1_n_n.rhsIdx j k 0).val = (k ⟨0, by decide⟩).val :=
  dot_S512x1024_S1024x512_S512x512_1_0_0_1_n_n.rhsIdx_val_of_single rfl j k
theorem rhs1_1 (j : S512x512.Idx) (k : dot_S512x1024_S1024x512_S512x512_1_0_0_1_n_n.contr.Idx) :
    (dot_S512x1024_S1024x512_S512x512_1_0_0_1_n_n.rhsIdx j k 1).val = (j 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- The block product into a zero accumulator, at entry (p, q): the sum over the 1024 contraction positions. -/
theorem prod1_apply (x0 : FVec Ideal S512x1024 .bf16) (x1 : FVec Ideal S1024x512 .bf16) (p q : Fin 512) :
    matmul dot_S512x1024_S1024x512_S512x512_1_0_0_1_n_n none x0 x1 (constant (F := Ideal) S512x512 .f32 0x00000000#32) (ix2 p q)
      = ∑ e : Fin 1024, x0 (ix2 p e) * x1 (ix2 e q) := by
  refine (Ideal.matmul_constant_zero_apply dot_S512x1024_S1024x512_S512x512_1_0_0_1_n_n none x0 x1 (ix2 p q)).trans ?_
  rw [← Equiv.sum_comp (contrEquiv1 dot_S512x1024_S1024x512_S512x512_1_0_0_1_n_n 1024 rfl rfl).symm]
  refine Finset.sum_congr rfl fun e _ => ?_
  have he := contrEquiv1_symm_val dot_S512x1024_S1024x512_S512x512_1_0_0_1_n_n 1024 rfl rfl e
  have el : dot_S512x1024_S1024x512_S512x512_1_0_0_1_n_n.lhsIdx (ix2 p q) ((contrEquiv1 dot_S512x1024_S1024x512_S512x512_1_0_0_1_n_n 1024 rfl rfl).symm e) = ix2 p e := funext fun a => Fin.ext (by
    match a with
    | ⟨0, _⟩ => exact lhs1_0 _ _
    | ⟨1, _⟩ => exact (lhs1_1 _ _).trans he)
  have er : dot_S512x1024_S1024x512_S512x512_1_0_0_1_n_n.rhsIdx (ix2 p q) ((contrEquiv1 dot_S512x1024_S1024x512_S512x512_1_0_0_1_n_n 1024 rfl rfl).symm e) = ix2 e q := funext fun a => Fin.ext (by
    match a with
    | ⟨0, _⟩ => exact (rhs1_0 _ _).trans he
    | ⟨1, _⟩ => exact rhs1_1 _ _)
  rw [el, er]

/-! ## The mask at an index -/

/-- A word `n·512 + r` with n < 8 and r < 512, computed in 32 bits, reads signed as that number (no overflow). -/
theorem toInt_scaled (n r : Nat) (hn : n < 8) (hr : r < 512) :
    (IntOp.addi (Scalar.muli (BitVec.ofNat 32 n) 512#32) (BitVec.ofNat 32 r)).toInt = (n * 512 + r : Nat) := by
  have e : IntOp.addi (Scalar.muli (BitVec.ofNat 32 n) 512#32) (BitVec.ofNat 32 r) = BitVec.ofNat 32 (n * 512 + r) := by
    apply BitVec.eq_of_toNat_eq
    simp only [IntOp.addi, Scalar.muli, IntOp.muli, BitVec.toNat_add, BitVec.toNat_mul, BitVec.toNat_ofNat]
    omega
  rw [e]
  exact WordArith.toInt_ofNat_small _ (by omega)

/-- The mask's bit at entry (p, q) of the block at grid point i = (m, n): set exactly when the entry's column in the
    whole array, n·512 + q, is less than its row, m·512 + p. -/
def mask1 (i : grid1.Coords) : IVec S512x512 1 :=
  cmpi .slt
    (addi (broadcast S512x512 (Scalar.muli (BitVec.ofNat 32 (i 1).val) 512#32)) (iota .tc S512x512 32 [1] iota_S512x512_d1_w32))
    (addi (broadcast S512x512 (Scalar.muli (BitVec.ofNat 32 (i 0).val) 512#32)) (iota .tc S512x512 32 [0] iota_S512x512_d0_w32))

theorem mask1_apply (i : grid1.Coords) (p q : Fin 512) :
    mask1 i (ix2 p q) = 1#1 ↔ (i 1).val * 512 + q.val < (i 0).val * 512 + p.val := by
  have h0 : (i 0).val < 8 := (i 0).isLt
  have h1 : (i 1).val < 8 := (i 1).isLt
  show IntOp.cmpi .slt
      (IntOp.addi (Scalar.muli (BitVec.ofNat 32 (i 1).val) 512#32) (iota .tc S512x512 32 [1] iota_S512x512_d1_w32 (ix2 p q)))
      (IntOp.addi (Scalar.muli (BitVec.ofNat 32 (i 0).val) 512#32) (iota .tc S512x512 32 [0] iota_S512x512_d0_w32 (ix2 p q))) = 1#1 ↔ _
  rw [iota_single_apply, iota_single_apply, IntOp.cmpi_slt]
  show (IntOp.addi (Scalar.muli (BitVec.ofNat 32 (i 1).val) 512#32) (BitVec.ofNat 32 q.val)).toInt
      < (IntOp.addi (Scalar.muli (BitVec.ofNat 32 (i 0).val) 512#32) (BitVec.ofNat 32 p.val)).toInt ↔ _
  rw [toInt_scaled _ _ h1 q.isLt, toInt_scaled _ _ h0 p.isLt]
  exact Nat.cast_lt

/-! ## The two payloads at an index -/

/-- The first branch's payload is the product selected by the mask, zero elsewhere. -/
theorem k1pay1_eq (i : grid1.Coords) (x0 : Vec Ideal S512x1024 .bf16) (x1 : Vec Ideal S1024x512 .bf16) :
    k1_pay1 (F := Ideal) i x0 x1 = select (mask1 i)
      (matmul (φ₁ := .bf16) (φ₂ := .bf16) dot_S512x1024_S1024x512_S512x512_1_0_0_1_n_n none x0 x1 (constant (F := Ideal) S512x512 .f32 0x00000000#32))
      (broadcast S512x512 (Scalar.ofBits (F := Ideal) .f32 0x00000000#32)) := by
  unfold k1_pay1 mask1
  simp only [shapeCast_self]

theorem k1pay1_apply (i : grid1.Coords) (x0 : Vec Ideal S512x1024 .bf16) (x1 : Vec Ideal S1024x512 .bf16) (p q : Fin 512) :
    k1_pay1 (F := Ideal) i x0 x1 (ix2 p q)
      = if (i 1).val * 512 + q.val < (i 0).val * 512 + p.val then ∑ e : Fin 1024, x0 (ix2 p e) * x1 (ix2 e q) else 0 := by
  rw [k1pay1_eq]
  refine (select_apply _ _ _ _).trans ?_
  by_cases h : (i 1).val * 512 + q.val < (i 0).val * 512 + p.val
  · rw [if_pos h, (mask1_apply i p q).mpr h, select_one]
    exact prod1_apply x0 x1 p q
  · rw [if_neg h, eq_zero_of_ne_one (fun hm => h ((mask1_apply i p q).mp hm)), select_zero]
    show Ideal.ofBits .f32 0x00000000#32 = 0
    exact Ideal.ofBits_zero_f32

/-- The second branch's payload is zero everywhere. -/
theorem k1pay2_apply (j : S512x512.Idx) : k1_pay2 (F := Ideal) j = 0 := by
  show Ideal.ofBits .f32 0x00000000#32 = 0
  exact Ideal.ofBits_zero_f32

end Cert.KernelIdeal.Hand

end
-- ==== Proof.KI.Spec.lean ====
/- The specification of the contact map, over the extended reals and literal shapes: with X the rows 1..4096 of the
   feature array, XP = X·P, QXT = Q·Xᵀ, the result's entry (r, s) is Σ_e XP[r,e]·QXT[e,s] when s < r and the real 0
   otherwise (the strictly lower triangle of X·P·Q·Xᵀ). -/
import Idealize.ShloMosaic.PureOps.Ideal
import Idealize.ShloMosaic.Lib.ValueIdx

noncomputable section

open scoped BigOperators

namespace Cert.ContactSpec

open Idealize.ShloMosaic Idealize.ShloMosaic.ValueIdx

/-- The feature array, 1 × 4097 × 4096. -/
abbrev SF : Shape := ⟨3, ![1, 4097, 4096]⟩
/-- P, 4096 × 1024 (also the shape of X·P). -/
abbrev SP : Shape := ⟨2, ![4096, 1024]⟩
/-- Q, 1024 × 4096 (also the shape of Q·Xᵀ). -/
abbrev SQ : Shape := ⟨2, ![1024, 4096]⟩
/-- X and the result, 4096 × 4096. -/
abbrev SX : Shape := ⟨2, ![4096, 4096]⟩

/-- X[r, d] = features[0, r + 1, d]. -/
def Xof (feat : SF.Idx → EReal) : SX.Idx → EReal :=
  fun j => feat (ix3 (0 : Fin 1) (⟨(j 0).val + 1, by have := idx2_lt0 j; omega⟩ : Fin 4097) (⟨(j 1).val, idx2_lt1 j⟩ : Fin 4096))

/-- (X·P)[r, e] = Σ_d X[r, d]·P[d, e]. -/
def XPof (X : SX.Idx → EReal) (Pm : SP.Idx → EReal) : SP.Idx → EReal :=
  fun j => ∑ d : Fin 4096, X (ix2 (⟨(j 0).val, idx2_lt0 j⟩ : Fin 4096) d) * Pm (ix2 d (⟨(j 1).val, idx2_lt1 j⟩ : Fin 1024))

/-- (Q·Xᵀ)[e, s] = Σ_d Q[e, d]·X[s, d]. -/
def QXTof (X : SX.Idx → EReal) (Qm : SQ.Idx → EReal) : SQ.Idx → EReal :=
  fun j => ∑ d : Fin 4096, Qm (ix2 (⟨(j 0).val, idx2_lt0 j⟩ : Fin 1024) d) * X (ix2 (⟨(j 1).val, idx2_lt1 j⟩ : Fin 4096) d)

/-- The strictly lower triangle of A·B: entry (r, s) is Σ_e A[r, e]·B[e, s] if s < r, else 0. -/
def maskedProduct (A : SP.Idx → EReal) (B : SQ.Idx → EReal) : SX.Idx → EReal :=
  fun j => if (j 1).val < (j 0).val then
      ∑ e : Fin 1024, A (ix2 (⟨(j 0).val, idx2_lt0 j⟩ : Fin 4096) e) * B (ix2 e (⟨(j 1).val, idx2_lt1 j⟩ : Fin 4096))
    else 0

/-- The whole map: tril(X·P·Q·Xᵀ, −1) of the three argument arrays. -/
def G (feat : SF.Idx → EReal) (Pm : SP.Idx → EReal) (Qm : SQ.Idx → EReal) : SX.Idx → EReal :=
  maskedProduct (XPof (Xof feat) Pm) (QXTof (Xof feat) Qm)

end Cert.ContactSpec

end
-- ==== Proof.KI.R1Value.lean ====
/- Region 1's value over the extended reals: after the region the output array is the strictly lower triangle of the
   product of the two intermediate arrays as the region finds them. Each grid point (m, n) writes back the 512 × 512
   block at rows m·512.., columns n·512..: for n ≤ m the masked block product, for n > m zeros — and in both cases
   that is the block of the masked product of the whole arrays, because a block above the diagonal has every column
   index at least (m+1)·512 > its row index. The 64 blocks tile the array. -/
import proofs.«145582_j70995809403345_2_alg».proof.Proof.KI.R1Frame
import proofs.«145582_j70995809403345_2_alg».proof.Proof.KI.R1Pay
import proofs.«145582_j70995809403345_2_alg».proof.Proof.KI.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.ContactSpec (maskedProduct SP SQ SX)

variable (V : (c : Dev nD) → (b : Ref sig .tc) → Buf (Elt Ideal) ((c : Thread nD τ).loc b))

theorem hz1 : (![0, 0] : Fin 2 → Nat) = fun _ => 0 := funext fun a => by fin_cases a <;> rfl

/-! ## The windows' block indices over the grid

At point `t` (row-block `t / 8`, column-block `t % 8`) the first input's block is row-block `t / 8` of its array, the
second input's is column-block `t % 8` of its array, and the output's is block (`t / 8`, `t % 8`). -/

theorem idx_facts1 : ∀ t : Fin cfg1.N,
    win1_0.index t (0 : Fin 2) = t.val / 8 ∧ win1_0.index t (1 : Fin 2) = 0
    ∧ win1_1.index t (0 : Fin 2) = 0 ∧ win1_1.index t (1 : Fin 2) = t.val % 8
    ∧ win1_2.index t (0 : Fin 2) = t.val / 8 ∧ win1_2.index t (1 : Fin 2) = t.val % 8 :=
  (by decide +kernel : ∀ t : Fin grid1.N, _)

/-- Entry (p, e) of the first input's block at point `t` is entry (t/8·512 + p, e) of the first array. -/
theorem iblk1_0_apply (c : Dev nD) (t : Fin cfg1.N) (p : Fin 512) (e : Fin 1024) (r : Fin 4096)
    (hr : r.val = t.val / 8 * 512 + p.val) :
    (iblk1 V c 0 t : Vec Ideal S512x1024 .bf16) (ix2 p e) = (V c main_v2_0 : SP.Idx → EReal) (ix2 r e) := by
  obtain ⟨e0, e1, -⟩ := idx_facts1 t
  unfold iblk1
  rw [View.read_apply]
  show V c main_v2_0 _ = V c main_v2_0 _
  congr 1
  funext a
  apply Fin.ext
  match a with
  | ⟨0, _⟩ => show win1_0.index t 0 * 512 + 1 * p.val = r.val; rw [e0, hr]; omega
  | ⟨1, _⟩ => show win1_0.index t 1 * 1024 + 1 * e.val = e.val; rw [e1]; omega

/-- Entry (e, q) of the second input's block at point `t` is entry (e, t%8·512 + q) of the second array. -/
theorem iblk1_1_apply (c : Dev nD) (t : Fin cfg1.N) (e : Fin 1024) (q : Fin 512) (s : Fin 4096)
    (hs : s.val = t.val % 8 * 512 + q.val) :
    (iblk1 V c 1 t : Vec Ideal S1024x512 .bf16) (ix2 e q) = (V c main_v2_1 : SQ.Idx → EReal) (ix2 e s) := by
  obtain ⟨-, -, e2, e3, -⟩ := idx_facts1 t
  unfold iblk1
  rw [View.read_apply]
  show V c main_v2_1 _ = V c main_v2_1 _
  congr 1
  funext a
  apply Fin.ext
  match a with
  | ⟨0, _⟩ => show win1_1.index t 0 * 1024 + 1 * e.val = e.val; rw [e2]; omega
  | ⟨1, _⟩ => show win1_1.index t 1 * 512 + 1 * q.val = s.val; rw [e3, hs]; omega

/-- The masked product at an index whose coordinates are known. -/
theorem masked_at (A : SP.Idx → EReal) (B : SQ.Idx → EReal) (j : SX.Idx) (r s : Fin 4096)
    (hr : (j 0).val = r.val) (hs : (j 1).val = s.val) :
    maskedProduct A B j = if s.val < r.val then ∑ e : Fin 1024, A (ix2 r e) * B (ix2 e s) else 0 := by
  have e0 : (⟨(j 0).val, idx2_lt0 j⟩ : Fin 4096) = r := Fin.ext hr
  have e1 : (⟨(j 1).val, idx2_lt1 j⟩ : Fin 4096) = s := Fin.ext hs
  unfold maskedProduct
  dsimp only
  rw [e0, e1, hr, hs]

/-! ## What a point writes back -/

/-- WHAT POINT `t` WRITES BACK is block `t` of the masked product of the two arrays as the region finds them. -/
theorem flushed1_eq (c : Dev nD) (t : Fin cfg1.N) :
    (dat1 V c).flushed 2 t
      = ((cfg1.win 2).blk t).view.read (Elt Ideal) (maskedProduct (V c main_v2_0) (V c main_v2_1)) := by
  show (cfg1.win 2).cut (grid1.coords t) ((dat1 V c).after 2 t) = _
  rw [after1_2]
  obtain ⟨-, -, -, -, e4, e5⟩ := idx_facts1 t
  have hN : t.val < 64 := lt_of_lt_of_eq t.isLt (show cfg1.N = 64 from N_1)
  unfold out1
  by_cases h : t.val % 8 ≤ t.val / 8
  · rw [if_pos h]
    unfold out1_A
    rw [View.canon_unit_zero hz1]
    simp only [View.ld_unit_zero (S := S512x1024) hz1, View.ld_unit_zero (S := S1024x512) hz1]
    funext j
    obtain ⟨p, q, rfl⟩ : ∃ (p q : Fin 512), j = ix2 p q := ⟨j 0, j 1, eq_ix2 j⟩
    have hr : t.val / 8 * 512 + p.val < 4096 := by have := p.isLt; omega
    have hs : t.val % 8 * 512 + q.val < 4096 := by have := q.isLt; omega
    show k1_pay1 (F := Ideal) (grid1.coords t) (iblk1 V c 0 t) (iblk1 V c 1 t) (ix2 p q)
      = maskedProduct (V c main_v2_0) (V c main_v2_1) (((cfg1.win 2).blk t).view.emb (ix2 p q))
    refine (k1pay1_apply (grid1.coords t) (iblk1 V c 0 t) (iblk1 V c 1 t) p q).trans ?_
    refine Eq.trans ?_ (masked_at (V c main_v2_0) (V c main_v2_1) (((cfg1.win 2).blk t).view.emb (ix2 p q))
      ⟨t.val / 8 * 512 + p.val, hr⟩ ⟨t.val % 8 * 512 + q.val, hs⟩
      (by show win1_2.index t 0 * 512 + 1 * p.val = t.val / 8 * 512 + p.val; rw [e4]; omega)
      (by show win1_2.index t 1 * 512 + 1 * q.val = t.val % 8 * 512 + q.val; rw [e5]; omega)).symm
    rw [coords1_0 t, coords1_1 t]
    refine if_congr Iff.rfl (Finset.sum_congr rfl fun e _ => ?_) rfl
    rw [iblk1_0_apply V c t p e ⟨t.val / 8 * 512 + p.val, hr⟩ rfl, iblk1_1_apply V c t e q ⟨t.val % 8 * 512 + q.val, hs⟩ rfl]
  · rw [if_neg h]
    unfold out1_B
    rw [View.canon_unit_zero hz1]
    funext j
    obtain ⟨p, q, rfl⟩ : ∃ (p q : Fin 512), j = ix2 p q := ⟨j 0, j 1, eq_ix2 j⟩
    have hr : t.val / 8 * 512 + p.val < 4096 := by have := p.isLt; omega
    have hs : t.val % 8 * 512 + q.val < 4096 := by have := q.isLt; omega
    show k1_pay2 (F := Ideal) (ix2 p q)
      = maskedProduct (V c main_v2_0) (V c main_v2_1) (((cfg1.win 2).blk t).view.emb (ix2 p q))
    refine (k1pay2_apply (ix2 p q)).trans (Eq.symm ?_)
    refine (masked_at (V c main_v2_0) (V c main_v2_1) (((cfg1.win 2).blk t).view.emb (ix2 p q))
      ⟨t.val / 8 * 512 + p.val, hr⟩ ⟨t.val % 8 * 512 + q.val, hs⟩
      (by show win1_2.index t 0 * 512 + 1 * p.val = t.val / 8 * 512 + p.val; rw [e4]; omega)
      (by show win1_2.index t 1 * 512 + 1 * q.val = t.val % 8 * 512 + q.val; rw [e5]; omega)).trans ?_
    refine if_neg ?_
    show ¬(t.val % 8 * 512 + q.val < t.val / 8 * 512 + p.val)
    have := p.isLt
    omega

/-! ## The blocks tile the array -/

/-- An index of the array is in point `t`'s block iff each coordinate is in the block's range on its axis. -/
theorem mem_blk1_2 (t : Fin cfg1.N) (i : S4096x4096.Idx) :
    i ∈ ((cfg1.win 2).blk t).view.set ↔ ∀ a : Fin 2, win1_2.index t a * S512x512.size a ≤ (i a).val ∧ (i a).val < win1_2.index t a * S512x512.size a + S512x512.size a := by
  show i ∈ ((View.whole main_v3).slice (win1_2.rect t)).set ↔ _
  rw [View.set_slice_whole, Rect.mem_set_unit]
  exact Iff.rfl

/-- Entry (r, s) of the array is in the block of point (r / 512)·8 + s / 512, which is written back. -/
theorem cover1 (i : S4096x4096.Idx) :
    ∃ t : Fin cfg1.N, (cfg1.win 2).flush t = true ∧ i ∈ ((cfg1.win 2).blk t).view.set := by
  have h0 : (i 0).val < 4096 := (i 0).isLt
  have h1 : (i 1).val < 4096 := (i 1).isLt
  have hN : cfg1.N = 64 := N_1
  have ht : (i 0).val / 512 * 8 + (i 1).val / 512 < cfg1.N := by rw [hN]; omega
  obtain ⟨-, -, -, -, e4, e5⟩ := idx_facts1 ⟨(i 0).val / 512 * 8 + (i 1).val / 512, ht⟩
  refine ⟨⟨(i 0).val / 512 * 8 + (i 1).val / 512, ht⟩, flush1_2 _, ?_⟩
  rw [mem_blk1_2]
  intro a
  match a with
  | ⟨0, _⟩ =>
    show win1_2.index ⟨(i 0).val / 512 * 8 + (i 1).val / 512, ht⟩ 0 * 512 ≤ (i 0).val ∧ (i 0).val < win1_2.index ⟨(i 0).val / 512 * 8 + (i 1).val / 512, ht⟩ 0 * 512 + 512
    rw [e4]; dsimp only; omega
  | ⟨1, _⟩ =>
    show win1_2.index ⟨(i 0).val / 512 * 8 + (i 1).val / 512, ht⟩ 1 * 512 ≤ (i 1).val ∧ (i 1).val < win1_2.index ⟨(i 0).val / 512 * 8 + (i 1).val / 512, ht⟩ 1 * 512 + 512
    rw [e5]; dsimp only; omega

/-! ## The array after the region -/

/-- THE OUTPUT ARRAY after the region: the strictly lower triangle of the product of the two intermediate arrays. -/
theorem final1 (c : Dev nD) :
    (dat1 V c).arrAt 2 cfg1.N = maskedProduct (V c main_v2_0) (V c main_v2_1) :=
  (dat1 V c).arrAt_eq_of_cover 2 (maskedProduct (V c main_v2_0) (V c main_v2_1)) (fun t _ => flushed1_eq V c t) cover1

end Cert.KernelIdeal.Hand

end
-- ==== Proof.KI.V0Pieces.lean ====
/- Region 0: what each run of the body leaves in the accumulators and the output buffers, as the body's arithmetic of the
   input blocks and of the accumulators it was handed — a zeroed-then-added accumulator at the first reduction step, an
   added-to accumulator at the others, the casts of the accumulators at the last. -/
import proofs.«145582_j70995809403345_2_alg».proof.Proof.KI.R0Frame
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl

/-- At a reduction's first step the first accumulator ends at the zero array plus the step's product. -/
theorem contA_acc0 (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x256 .f32) (x1 : Vec F S256x1024 .f32) (x2 : Vec F S1024x256 .f32) :
    (cont0_A c i arg2 harg2 arg3 harg3 arg4 harg4 arg5 harg5 arg6 harg6 arg7 harg7 arg8 harg8 hc0 hc1 x0 x1 x2).2.2.1 = k0_pay4 x0 x1 k0_pay1 := by
  unfold cont0_A
  dsimp only
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  first | rw [View.canon_unit_zero hz2] | rw [View.canon_cons_unit_zero hz2]
  simp only [View.readAt_eq_ld, harg2.read_unread, harg3.read_unread, harg4.read_unread, harg7.read_unread, harg8.read_unread,
    View.readCov_unit_zero (S := S1024x1024) _ hz2,
    View.ld_unit_zero (S := S1024x256) hz2, View.ld_unit_zero (S := S256x1024) hz2, View.ld_unit_zero (S := S1024x1024) hz2]

/-- At a reduction's first step the second accumulator ends at the zero array plus the step's product. -/
theorem contA_acc1 (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x256 .f32) (x1 : Vec F S256x1024 .f32) (x2 : Vec F S1024x256 .f32) :
    (cont0_A c i arg2 harg2 arg3 harg3 arg4 harg4 arg5 harg5 arg6 harg6 arg7 harg7 arg8 harg8 hc0 hc1 x0 x1 x2).2.2.2 = k0_pay5 x0 x2 k0_pay2 := by
  unfold cont0_A
  dsimp only
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  first | rw [View.canon_unit_zero hz2] | rw [View.canon_cons_unit_zero hz2]
  simp only [View.readAt_eq_ld, harg2.read_unread, harg3.read_unread, harg4.read_unread, harg7.read_unread, harg8.read_unread,
    View.readCov_unit_zero (S := S1024x1024) _ hz2,
    View.ld_unit_zero (S := S1024x256) hz2, View.ld_unit_zero (S := S256x1024) hz2, View.ld_unit_zero (S := S1024x1024) hz2]

/-- At a middle step the first accumulator ends at what it held plus the step's product. -/
theorem contB_acc0 (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x256 .f32) (x1 : Vec F S256x1024 .f32) (x2 : Vec F S1024x256 .f32) (xs0 : Vec F S1024x1024 .f32) (xs1 : Vec F S1024x1024 .f32) :
    (cont0_B c i arg2 harg2 arg3 harg3 arg4 harg4 arg5 harg5 arg6 harg6 arg7 harg7 arg8 harg8 hc0 hc1 x0 x1 x2 xs0 xs1).2.2.1 = k0_pay4 x0 x1 xs0 := by
  unfold cont0_B
  dsimp only
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  sl_unfold_words
  first | rw [View.canon_unit_zero hz2] | rw [View.canon_cons_unit_zero hz2]
  simp only [View.readAt_eq_ld, harg2.read_unread, harg3.read_unread, harg4.read_unread, harg7.read_unread, harg8.read_unread,
    View.readCov_unit_zero (S := S1024x1024) _ hz2,
    View.ld_unit_zero (S := S1024x256) hz2, View.ld_unit_zero (S := S256x1024) hz2, View.ld_unit_zero (S := S1024x1024) hz2]

/-- At a middle step the second accumulator ends at what it held plus the step's product. -/
theorem contB_acc1 (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x256 .f32) (x1 : Vec F S256x1024 .f32) (x2 : Vec F S1024x256 .f32) (xs0 : Vec F S1024x1024 .f32) (xs1 : Vec F S1024x1024 .f32) :
    (cont0_B c i arg2 harg2 arg3 harg3 arg4 harg4 arg5 harg5 arg6 harg6 arg7 harg7 arg8 harg8 hc0 hc1 x0 x1 x2 xs0 xs1).2.2.2 = k0_pay5 x0 x2 xs1 := by
  unfold cont0_B
  dsimp only
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  sl_unfold_words
  first | rw [View.canon_unit_zero hz2] | rw [View.canon_cons_unit_zero hz2]
  simp only [View.readAt_eq_ld, harg2.read_unread, harg3.read_unread, harg4.read_unread, harg7.read_unread, harg8.read_unread,
    View.readCov_unit_zero (S := S1024x1024) _ hz2,
    View.ld_unit_zero (S := S1024x256) hz2, View.ld_unit_zero (S := S256x1024) hz2, View.ld_unit_zero (S := S1024x1024) hz2]

/-- At the last step the first accumulator ends at what it held plus the step's product, -/
theorem contC_acc0 (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x256 .f32) (x1 : Vec F S256x1024 .f32) (x2 : Vec F S1024x256 .f32) (xs0 : Vec F S1024x1024 .f32) (xs1 : Vec F S1024x1024 .f32) :
    (cont0_C c i arg2 harg2 arg3 harg3 arg4 harg4 arg5 harg5 arg6 harg6 arg7 harg7 arg8 harg8 hc0 hc1 x0 x1 x2 xs0 xs1).2.2.1 = k0_pay4 x0 x1 xs0 := by
  unfold cont0_C
  dsimp only
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  sl_unfold_words
  first | rw [View.canon_unit_zero hz2] | rw [View.canon_cons_unit_zero hz2]
  simp only [View.readAt_eq_ld, harg2.read_unread, harg3.read_unread, harg4.read_unread, harg7.read_unread, harg8.read_unread,
    View.readCov_unit_zero (S := S1024x1024) _ hz2,
    View.ld_unit_zero (S := S1024x256) hz2, View.ld_unit_zero (S := S256x1024) hz2, View.ld_unit_zero (S := S1024x1024) hz2]

/-- the second likewise, -/
theorem contC_acc1 (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x256 .f32) (x1 : Vec F S256x1024 .f32) (x2 : Vec F S1024x256 .f32) (xs0 : Vec F S1024x1024 .f32) (xs1 : Vec F S1024x1024 .f32) :
    (cont0_C c i arg2 harg2 arg3 harg3 arg4 harg4 arg5 harg5 arg6 harg6 arg7 harg7 arg8 harg8 hc0 hc1 x0 x1 x2 xs0 xs1).2.2.2 = k0_pay5 x0 x2 xs1 := by
  unfold cont0_C
  dsimp only
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  sl_unfold_words
  first | rw [View.canon_unit_zero hz2] | rw [View.canon_cons_unit_zero hz2]
  simp only [View.readAt_eq_ld, harg2.read_unread, harg3.read_unread, harg4.read_unread, harg7.read_unread, harg8.read_unread,
    View.readCov_unit_zero (S := S1024x1024) _ hz2,
    View.ld_unit_zero (S := S1024x256) hz2, View.ld_unit_zero (S := S256x1024) hz2, View.ld_unit_zero (S := S1024x1024) hz2]

/-- and the first output buffer holds the cast of the first accumulator's final contents, -/
theorem contC_out3 (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x256 .f32) (x1 : Vec F S256x1024 .f32) (x2 : Vec F S1024x256 .f32) (xs0 : Vec F S1024x1024 .f32) (xs1 : Vec F S1024x1024 .f32) :
    (cont0_C c i arg2 harg2 arg3 harg3 arg4 harg4 arg5 harg5 arg6 harg6 arg7 harg7 arg8 harg8 hc0 hc1 x0 x1 x2 xs0 xs1).1 = k0_pay6 (k0_pay4 x0 x1 xs0) := by
  unfold cont0_C
  dsimp only
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  sl_unfold_words
  first | rw [View.canon_unit_zero hz2] | rw [View.canon_cons_unit_zero hz2]
  simp only [View.readAt_eq_ld, harg2.read_unread, harg3.read_unread, harg4.read_unread, harg7.read_unread, harg8.read_unread,
    View.readCov_unit_zero (S := S1024x1024) _ hz2,
    View.ld_unit_zero (S := S1024x256) hz2, View.ld_unit_zero (S := S256x1024) hz2, View.ld_unit_zero (S := S1024x1024) hz2]

/-- the second output buffer the cast of the second's. -/
theorem contC_out4 (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024x256 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x256 .f32) (x1 : Vec F S256x1024 .f32) (x2 : Vec F S1024x256 .f32) (xs0 : Vec F S1024x1024 .f32) (xs1 : Vec F S1024x1024 .f32) :
    (cont0_C c i arg2 harg2 arg3 harg3 arg4 harg4 arg5 harg5 arg6 harg6 arg7 harg7 arg8 harg8 hc0 hc1 x0 x1 x2 xs0 xs1).2.1 = k0_pay7 (k0_pay5 x0 x2 xs1) := by
  unfold cont0_C
  dsimp only
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  sl_unfold_words
  first | rw [View.canon_unit_zero hz2] | rw [View.canon_cons_unit_zero hz2]
  simp only [View.readAt_eq_ld, harg2.read_unread, harg3.read_unread, harg4.read_unread, harg7.read_unread, harg8.read_unread,
    View.readCov_unit_zero (S := S1024x1024) _ hz2,
    View.ld_unit_zero (S := S1024x256) hz2, View.ld_unit_zero (S := S256x1024) hz2, View.ld_unit_zero (S := S1024x1024) hz2]

end Cert.KernelIdeal.Hand

end
-- ==== Proof.KI.V0Blocks.lean ====
/- Region 0: each input window's block at a grid point, read at an index, is the entry of its array at the block's
   offset plus the index: point t = 16·i + k reads rows 1024·i… and columns 256·k… of X, rows 256·k… of P, columns 256·k… of Q. -/
import proofs.«145582_j70995809403345_2_alg».proof.Proof.KI.R0Frame
import Idealize.ShloMosaic.Lib.Pipeline.Value
import Idealize.ShloMosaic.Lib.ValueIdx
set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The windows' block indices over the grid: point t = 16·i + k. -/
theorem idx0_0 : ∀ t : Fin cfg0.N, win0_0.index t 0 = t.val / 16 ∧ win0_0.index t 1 = t.val % 16 :=
  (by decide +kernel : ∀ t : Fin grid0.N, win0_0.index t 0 = t.val / 16 ∧ win0_0.index t 1 = t.val % 16)
theorem idx0_1 : ∀ t : Fin cfg0.N, win0_1.index t 0 = t.val % 16 ∧ win0_1.index t 1 = 0 :=
  (by decide +kernel : ∀ t : Fin grid0.N, win0_1.index t 0 = t.val % 16 ∧ win0_1.index t 1 = 0)
theorem idx0_2 : ∀ t : Fin cfg0.N, win0_2.index t 0 = 0 ∧ win0_2.index t 1 = t.val % 16 :=
  (by decide +kernel : ∀ t : Fin grid0.N, win0_2.index t 0 = 0 ∧ win0_2.index t 1 = t.val % 16)
theorem idx0_3 : ∀ t : Fin cfg0.N, win0_3.index t 0 = t.val / 16 ∧ win0_3.index t 1 = 0 :=
  (by decide +kernel : ∀ t : Fin grid0.N, win0_3.index t 0 = t.val / 16 ∧ win0_3.index t 1 = 0)
theorem idx0_4 : ∀ t : Fin cfg0.N, win0_4.index t 0 = 0 ∧ win0_4.index t 1 = t.val / 16 :=
  (by decide +kernel : ∀ t : Fin grid0.N, win0_4.index t 0 = 0 ∧ win0_4.index t 1 = t.val / 16)

/-- The X block at point t, at (p, d), is X[1024·(t/16) + p, 256·(t%16) + d]. -/
theorem iblk0_0_apply (c : Dev nD) (t : Fin cfg0.N) (p : Fin 1024) (d : Fin 256) (k : S4096x4096.Idx)
    (hk0 : (k 0).val = (t.val / 16) * 1024 + p.val) (hk1 : (k 1).val = (t.val % 16) * 256 + d.val) :
    (iblk0 V c 0 t : Vec Ideal S1024x256 .f32) (ix2 p d) = (V c main_v1 : S4096x4096.Idx → Elt Ideal .f32) k := by
  unfold iblk0
  rw [View.read_apply]
  show (V c main_v1 : S4096x4096.Idx → Elt Ideal .f32) _ = _
  congr 1
  funext a
  apply Fin.ext
  match a with
  | ⟨0, _⟩ => show win0_0.index t 0 * 1024 + 1 * p.val = (k 0).val; rw [(idx0_0 t).1, hk0]; omega
  | ⟨1, _⟩ => show win0_0.index t 1 * 256 + 1 * d.val = (k 1).val; rw [(idx0_0 t).2, hk1]; omega

/-- The P block at point t, at (d, e), is P[256·(t%16) + d, e]. -/
theorem iblk0_1_apply (c : Dev nD) (t : Fin cfg0.N) (d : Fin 256) (e : Fin 1024) (k : S4096x1024.Idx)
    (hk0 : (k 0).val = (t.val % 16) * 256 + d.val) (hk1 : (k 1).val = e.val) :
    (iblk0 V c 1 t : Vec Ideal S256x1024 .f32) (ix2 d e) = (V c main_arg1 : S4096x1024.Idx → Elt Ideal .f32) k := by
  unfold iblk0
  rw [View.read_apply]
  show (V c main_arg1 : S4096x1024.Idx → Elt Ideal .f32) _ = _
  congr 1
  funext a
  apply Fin.ext
  match a with
  | ⟨0, _⟩ => show win0_1.index t 0 * 256 + 1 * d.val = (k 0).val; rw [(idx0_1 t).1, hk0]; omega
  | ⟨1, _⟩ => show win0_1.index t 1 * 1024 + 1 * e.val = (k 1).val; rw [(idx0_1 t).2, hk1]; omega

/-- The Q block at point t, at (e, d), is Q[e, 256·(t%16) + d]. -/
theorem iblk0_2_apply (c : Dev nD) (t : Fin cfg0.N) (e : Fin 1024) (d : Fin 256) (k : S1024x4096.Idx)
    (hk0 : (k 0).val = e.val) (hk1 : (k 1).val = (t.val % 16) * 256 + d.val) :
    (iblk0 V c 2 t : Vec Ideal S1024x256 .f32) (ix2 e d) = (V c main_arg2 : S1024x4096.Idx → Elt Ideal .f32) k := by
  unfold iblk0
  rw [View.read_apply]
  show (V c main_arg2 : S1024x4096.Idx → Elt Ideal .f32) _ = _
  congr 1
  funext a
  apply Fin.ext
  match a with
  | ⟨0, _⟩ => show win0_2.index t 0 * 1024 + 1 * e.val = (k 0).val; rw [(idx0_2 t).1, hk0]; omega
  | ⟨1, _⟩ => show win0_2.index t 1 * 256 + 1 * d.val = (k 1).val; rw [(idx0_2 t).2, hk1]; omega

end Cert.KernelIdeal.Hand

end
-- ==== Proof.KI.LibDot.lean ====
/-
  A product of an `[m, k]` array by a `[k, n]` array over ONE contracted axis, read at an output index `(p, e)` on the
  extended reals as the plain sum `∑ⱼ A[p, j] · B[j, e]` over `j : Fin k` — for the vector unit's matrix product into a zero
  accumulator and for the host's `dot_general` alike, whatever the two operands' float formats.  The dimension numbers
  enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index, re-indexed by the contracted axis's one coordinate. -/
theorem contract_sum {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ φ₁) (B : FVec Ideal ⟨2, ![k, n]⟩ φ₂) (p : Fin m) (e : Fin n) :
    ∑ q : D.contr.Idx, A (D.lhsIdx (ix2 p e) q) * B (D.rhsIdx (ix2 p e) q) = ∑ j : Fin k, A (ix2 p j) * B (ix2 j e) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

/-- The vector unit's matrix product into the zero accumulator, at `(p, e)`. -/
theorem matmul_zero_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) :=
  (Ideal.matmul_constant_zero_apply D prec A B (ix2 p e)).trans (contract_sum D hr hs hl0 hl1 hr0 hr1 A B p e)

/-- The host's `dot_general`, at `(p, e)`. -/
theorem dotGeneral_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (sched : HostSchedule) (A : FVec Ideal ⟨2, ![m, k]⟩ φ₁) (B : FVec Ideal ⟨2, ![k, n]⟩ φ₂)
    (p : Fin m) (e : Fin n) :
    FloatOps.dotGeneral D prec sched A B (ix2 p e) = ∑ j : Fin k, A (ix2 p j) * B (ix2 j e) :=
  (Ideal.dotGeneral_apply D prec sched A B (ix2 p e)).trans (contract_sum D hr hs hl0 hl1 hr0 hr1 A B p e)

end Cert.LibDot

end
-- ==== Proof.KI.LibDotRows.lean ====
/-
  A product of an `[m, k]` array by an `[n, k]` array over their SHARED LAST axis (rows against rows), read at an
  output index `(p, e)` on the extended reals as the plain sum `∑ⱼ A[p, j] · B[e, j]` over `j : Fin k` — for the
  vector unit's matrix product into a zero accumulator, whatever the two operands' float formats. The dimension
  numbers enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDotRows

open Idealize.ShloMosaic Idealize.ShloMosaic.ValueIdx

/-- The sum over the contraction index, re-indexed by the contracted axis's one coordinate. -/
theorem contract_sum_rows {m k n : ℕ} {φ₁ φ₂ : FTy} (D : DotDims ⟨2, ![m, k]⟩ ⟨2, ![n, k]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (A : FVec Ideal ⟨2, ![m, k]⟩ φ₁) (B : FVec Ideal ⟨2, ![n, k]⟩ φ₂) (p : Fin m) (e : Fin n) :
    ∑ q : D.contr.Idx, A (D.lhsIdx (ix2 p e) q) * B (D.rhsIdx (ix2 p e) q) = ∑ j : Fin k, A (ix2 p j) * B (ix2 e j) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 e j := funext fun a => Fin.ext (by
    match a with
    | ⟨0, _⟩ => exact hr0 _ _
    | ⟨1, _⟩ => exact (hr1 _ _).trans hk)
  rw [el, er]

/-- The vector unit's matrix product of rows against rows into the zero accumulator, at `(p, e)`. -/
theorem matmul_zero_rows_apply {m k n : ℕ} {φ₁ φ₂ : FTy} (D : DotDims ⟨2, ![m, k]⟩ ⟨2, ![n, k]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision) (A : FVec Ideal ⟨2, ![m, k]⟩ φ₁) (B : FVec Ideal ⟨2, ![n, k]⟩ φ₂)
    (p : Fin m) (e : Fin n) :
    FloatOps.matmul D prec A B (constant ⟨2, ![m, n]⟩ .f32 0x00000000#32) (ix2 p e) = ∑ j : Fin k, A (ix2 p j) * B (ix2 e j) :=
  (Ideal.matmul_constant_zero_apply D prec A B (ix2 p e)).trans (contract_sum_rows D hr hs hl0 hl1 hr0 hr1 A B p e)

end Cert.LibDotRows

end
-- ==== Proof.KI.V0Pay.lean ====
/- The values the fused accumulation body stores, read at an index on the extended reals: the two zero fills, the two
   accumulate-a-product steps (an X block times a P block; a Q block times an X block over their shared last axis),
   and the two final casts, which are the identity on the extended reals. -/
import proofs.«145582_j70995809403345_2_alg».proof.Proof.Gen.KernelIdeal.Skeleton
import proofs.«145582_j70995809403345_2_alg».proof.Proof.KI.LibDot
import proofs.«145582_j70995809403345_2_alg».proof.Proof.KI.LibDotRows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! ## The zero fills -/

/-- The first accumulator's fill is the real zero everywhere. -/
theorem pay1_apply (j : S1024x1024.Idx) : Gen.k0_pay1 (F := Ideal) j = 0 := by
  unfold Gen.k0_pay1
  rw [shapeCast_self]
  exact Ideal.ofBits_zero_f32

/-- The second accumulator's fill is the real zero everywhere. -/
theorem pay2_apply (j : S1024x1024.Idx) : Gen.k0_pay2 (F := Ideal) j = 0 := by
  unfold Gen.k0_pay2
  rw [shapeCast_self]
  exact Ideal.ofBits_zero_f32

/-! ## Where the two products' dimension numbers send an index -/

theorem dotXP_l0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem dotXP_l1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem dotXP_r0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem dotXP_r1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

theorem dotQX_l0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem dotQX_l1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem dotQX_r0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem dotQX_r1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-! ## The two accumulate-a-product steps -/

/-- The cast of the X block to the narrower format is the X block on the extended reals. -/
theorem pay3_eq (x0 : FVec Ideal S1024x256 .f32) : Gen.k0_pay3 (F := Ideal) x0 = x0 := by
  unfold Gen.k0_pay3
  rw [shapeCast_self]
  rfl

/-- XP accumulates the X block times the P block: entry (p, e) gains Σ_d X[p, d]·P[d, e]. -/
theorem pay4_apply (x0 : FVec Ideal S1024x256 .f32) (x1 : FVec Ideal S256x1024 .f32) (a : FVec Ideal S1024x1024 .f32) (p e : Fin 1024) :
    Gen.k0_pay4 (F := Ideal) x0 x1 a (ix2 p e) = a (ix2 p e) + ∑ d : Fin 256, x0 (ix2 p d) * x1 (ix2 d e) := by
  unfold Gen.k0_pay4
  rw [shapeCast_self, addf_apply, pay3_eq]
  refine congrArg (a (ix2 p e) + ·) ?_
  exact Cert.LibDot.matmul_zero_apply (m := 1024) (k := 256) (n := 1024) dot_S1024x256_S256x1024_S1024x1024_1_0_0_1_n_n rfl rfl
    dotXP_l0 dotXP_l1 dotXP_r0 dotXP_r1 none x0 (truncf .bf16 x1 bitsLt_bf16_f32) p e

/-- QXT accumulates the Q block times the X block over their shared last axis: entry (e, s) gains Σ_d Q[e, d]·X[s, d]. -/
theorem pay5_apply (x0 : FVec Ideal S1024x256 .f32) (x2 : FVec Ideal S1024x256 .f32) (a : FVec Ideal S1024x1024 .f32) (e s : Fin 1024) :
    Gen.k0_pay5 (F := Ideal) x0 x2 a (ix2 e s) = a (ix2 e s) + ∑ d : Fin 256, x2 (ix2 e d) * x0 (ix2 s d) := by
  unfold Gen.k0_pay5
  rw [shapeCast_self, addf_apply, pay3_eq]
  refine congrArg (a (ix2 e s) + ·) ?_
  exact Cert.LibDotRows.matmul_zero_rows_apply (m := 1024) (k := 256) (n := 1024) dot_S1024x256_S1024x256_S1024x1024_1_1_0_0_n_n rfl rfl
    dotQX_l0 dotQX_l1 dotQX_r0 dotQX_r1 none (truncf .bf16 x2 bitsLt_bf16_f32) x0 e s

/-! ## The final casts -/

/-- The cast of the first accumulator to the output's format is the identity on the extended reals. -/
theorem pay6_apply (v : FVec Ideal S1024x1024 .f32) (j : S1024x1024.Idx) : Gen.k0_pay6 (F := Ideal) v j = v j := by
  unfold Gen.k0_pay6
  rfl

/-- The cast of the second accumulator to the output's format is the identity on the extended reals. -/
theorem pay7_apply (v : FVec Ideal S1024x1024 .f32) (j : S1024x1024.Idx) : Gen.k0_pay7 (F := Ideal) v j = v j := by
  unfold Gen.k0_pay7
  rfl

end Cert.KernelIdeal.Hand

end
-- ==== Proof.KI.LibSums.lean ====
/-
  Two re-indexings of finite sums, over any commutative monoid.

  * A sum over the indices of a rank-4 shape whose first two coordinates are fixed (the indices a reduction over
    the two trailing axes sends to one result index) is the double sum over the two trailing coordinates.
  * A sum over `Fin N` with `N = T * R` is the sum over `T` tiles of the sum over the `R` positions inside a tile,
    position `r` of tile `t` being `R * t + r`.
-/
import Idealize.ShloMosaic.Lib.ValueIdx
import Idealize.ShloMosaic.PureOps.Reduce

noncomputable section

open scoped BigOperators

namespace Cert.LibSums

open Idealize.ShloMosaic Idealize.ShloMosaic.ValueIdx

/-- Position `r` of tile `t` lies below `T * R`. -/
theorem tile_lt {T R N : Nat} (hN : T * R = N) (t : Fin T) (r : Fin R) : R * t.val + r.val < N := by
  have h1 : R * t.val + r.val < R * (t.val + 1) := by rw [Nat.mul_succ]; exact Nat.add_lt_add_left r.isLt _
  have h2 : R * (t.val + 1) ≤ R * T := Nat.mul_le_mul_left R (Nat.succ_le_of_lt t.isLt)
  rw [← hN, Nat.mul_comm T R]; exact Nat.lt_of_lt_of_le h1 h2

/-- A sum over `N = T * R` positions, tile by tile. -/
theorem sum_by_tiles {M : Type*} [AddCommMonoid M] {T R N : Nat} (hN : T * R = N) (f : Fin N → M) :
    ∑ h : Fin N, f h = ∑ t : Fin T, ∑ r : Fin R, f ⟨R * t.val + r.val, tile_lt hN t r⟩ := by
  subst hN
  rw [← Equiv.sum_comp (finProdFinEquiv (m := T) (n := R)) f, Fintype.sum_prod_type]
  refine Finset.sum_congr rfl fun t _ => Finset.sum_congr rfl fun r _ => congrArg f (Fin.ext ?_)
  show r.val + R * t.val = R * t.val + r.val
  omega

/-- The indices of a rank-4 shape that a reduction over axes 2 and 3 sends to `(p, q)`, summed, are the two
    trailing coordinates, summed. -/
theorem sum_filter_drop_last2 {M : Type*} [AddCommMonoid M] {n0 n1 A B : Nat}
    (h : (⟨4, ![n0, n1, A, B]⟩ : Shape).Reduces [2, 3] ⟨2, ![n0, n1]⟩)
    (x : (⟨4, ![n0, n1, A, B]⟩ : Shape).Idx → M) (p : Fin n0) (q : Fin n1) :
    ∑ i ∈ Finset.univ.filter (fun i => h.drop i = ix2 p q), x i = ∑ a : Fin A, ∑ b : Fin B, x (ix4 p q a b) := by
  have hd0 : ∀ i, ((h.drop i 0 : Fin n0) : Nat) = ((i 0 : Fin n0) : Nat) := fun i => rfl
  have hd1 : ∀ i, ((h.drop i 1 : Fin n1) : Nat) = ((i 1 : Fin n1) : Nat) := fun i => rfl
  rw [← Finset.sum_product']
  refine Finset.sum_nbij' (fun i => ((i 2 : Fin A), (i 3 : Fin B))) (fun ab => ix4 p q ab.1 ab.2) ?_ ?_ ?_ ?_ ?_
  · intro i _; exact Finset.mem_product.2 ⟨Finset.mem_univ _, Finset.mem_univ _⟩
  · intro ab _
    refine Finset.mem_filter.2 ⟨Finset.mem_univ _, funext fun b => Fin.ext ?_⟩
    match b with
    | ⟨0, _⟩ => exact hd0 _
    | ⟨1, _⟩ => exact hd1 _
  · intro i hi
    have hj := (Finset.mem_filter.1 hi).2
    have e0 : (i 0 : Fin n0) = p := Fin.ext ((hd0 i).symm.trans (congrArg (fun j : (⟨2, ![n0, n1]⟩ : Shape).Idx => ((j 0 : Fin n0) : Nat)) hj))
    have e1 : (i 1 : Fin n1) = q := Fin.ext ((hd1 i).symm.trans (congrArg (fun j : (⟨2, ![n0, n1]⟩ : Shape).Idx => ((j 1 : Fin n1) : Nat)) hj))
    show ix4 p q (i 2) (i 3) = i
    rw [← e0, ← e1]; exact (eq_ix4 i).symm
  · intro ab _; rfl
  · intro i hi
    have hj := (Finset.mem_filter.1 hi).2
    have e0 : (i 0 : Fin n0) = p := Fin.ext ((hd0 i).symm.trans (congrArg (fun j : (⟨2, ![n0, n1]⟩ : Shape).Idx => ((j 0 : Fin n0) : Nat)) hj))
    have e1 : (i 1 : Fin n1) = q := Fin.ext ((hd1 i).symm.trans (congrArg (fun j : (⟨2, ![n0, n1]⟩ : Shape).Idx => ((j 1 : Fin n1) : Nat)) hj))
    show x i = x (ix4 p q (i 2) (i 3))
    rw [← e0, ← e1]; exact congrArg x (eq_ix4 i)

end Cert.LibSums

end
-- ==== Proof.KI.V0Tiles.lean ====
/- A sum over 4096 positions is the sum over 16 tiles of 256 consecutive positions, position d of tile k being
   k · 256 + d — over any additive commutative monoid (the extended reals in particular). Pure re-indexing. -/
import proofs.«145582_j70995809403345_2_alg».proof.Proof.KI.LibSums

noncomputable section

open scoped BigOperators

namespace Cert.KernelIdeal.Hand

/-- Position d of tile k lies below 4096. -/
theorem tile_lt (k : Fin 16) (d : Fin 256) : k.val * 256 + d.val < 4096 := by
  have := k.isLt; have := d.isLt; omega

/-- The same for a tile number reduced modulo 16, so that it is stated for every natural number. -/
theorem tile_mod_lt (k : ℕ) (d : Fin 256) : (k % 16) * 256 + d.val < 4096 := by
  have := d.isLt; have := Nat.mod_lt k (by norm_num : 0 < 16); omega

/-- The sum over the 16 tiles of the sums over a tile's 256 positions is the whole sum. -/
theorem sum_tiles_fin {M : Type*} [AddCommMonoid M] (f : Fin 4096 → M) :
    (∑ k : Fin 16, ∑ d : Fin 256, f ⟨k.val * 256 + d.val, tile_lt k d⟩) = ∑ D : Fin 4096, f D := by
  rw [Cert.LibSums.sum_by_tiles (T := 16) (R := 256) (by norm_num) f]
  refine Finset.sum_congr rfl fun k _ => Finset.sum_congr rfl fun d _ => congrArg f (Fin.ext ?_)
  show k.val * 256 + d.val = 256 * k.val + d.val
  omega

/-- The same with the tiles counted by the natural numbers below 16. -/
theorem sum_tiles {M : Type*} [AddCommMonoid M] (f : Fin 4096 → M) :
    (∑ k ∈ Finset.range 16, ∑ d : Fin 256, f ⟨(k % 16) * 256 + d.val, tile_mod_lt k d⟩) = ∑ D : Fin 4096, f D := by
  rw [Finset.sum_range (fun k => ∑ d : Fin 256, f ⟨(k % 16) * 256 + d.val, tile_mod_lt k d⟩), ← sum_tiles_fin f]
  refine Finset.sum_congr rfl fun k _ => Finset.sum_congr rfl fun d _ => congrArg f (Fin.ext ?_)
  show (k.val % 16) * 256 + d.val = k.val * 256 + d.val
  rw [Nat.mod_eq_of_lt k.isLt]

end Cert.KernelIdeal.Hand

end
-- ==== Proof.KI.V0Acc.lean ====
/- Region 0: the accumulators point by point. After the point t = 16·i + k the first accumulator holds, at (p, e), the sum
   over the tiles 0..k of Σ_d X[1024·i + p, 256·k' + d]·P[256·k' + d, e], the second, at (e, s), the like sum of
   Q[e, 256·k' + d]·X[1024·i + s, 256·k' + d]: the zeroed accumulator plus one tile's product per reduction step. -/
import proofs.«145582_j70995809403345_2_alg».proof.Proof.KI.V0Pieces
import proofs.«145582_j70995809403345_2_alg».proof.Proof.KI.V0Blocks
import proofs.«145582_j70995809403345_2_alg».proof.Proof.KI.V0Pay
import proofs.«145582_j70995809403345_2_alg».proof.Proof.KI.V0Tiles
set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Position d of tile k (k taken modulo 16), as a column or row number below 4096. -/
def tix (k : ℕ) (d : Fin 256) : Fin 4096 := ⟨(k % 16) * 256 + d.val, tile_mod_lt k d⟩
/-- Row p of row block i (i taken modulo 4), as a row number below 4096. -/
def rix (i : ℕ) (p : Fin 1024) : Fin 4096 := ⟨(i % 4) * 1024 + p.val, by have := p.isLt; have := Nat.mod_lt i (by norm_num : 0 < 4); omega⟩

/-- The three arrays region 0 reads, as the region finds them. -/
abbrev Xa (c : Dev nD) : S4096x4096.Idx → EReal := (V c main_v1 : S4096x4096.Idx → Elt Ideal .f32)
abbrev Pa (c : Dev nD) : S4096x1024.Idx → EReal := (V c main_arg1 : S4096x1024.Idx → Elt Ideal .f32)
abbrev Qa (c : Dev nD) : S1024x4096.Idx → EReal := (V c main_arg2 : S1024x4096.Idx → Elt Ideal .f32)

/-- One reduction step of the first accumulator at point t, in the arrays' own coordinates. -/
theorem step0 (c : Dev nD) (t : Fin cfg0.N) (a : Vec Ideal S1024x1024 .f32) (p e : Fin 1024) :
    Gen.k0_pay4 (F := Ideal) (iblk0 V c 0 t) (iblk0 V c 1 t) a (ix2 p e)
      = (a : S1024x1024.Idx → EReal) (ix2 p e) + ∑ d : Fin 256, Xa V c (ix2 (rix (t.val / 16) p) (tix (t.val % 16) d)) * Pa V c (ix2 (tix (t.val % 16) d) e) := by
  have hN : t.val < 64 := lt_of_lt_of_eq t.isLt (show cfg0.N = 64 from N_0)
  refine (pay4_apply _ _ _ p e).trans ?_
  refine congrArg ((a : S1024x1024.Idx → EReal) (ix2 p e) + ·) (Finset.sum_congr rfl fun d _ => ?_)
  rw [iblk0_0_apply V c t p d (ix2 (rix (t.val / 16) p) (tix (t.val % 16) d))
      (by show (t.val / 16 % 4) * 1024 + p.val = _; omega) (by show (t.val % 16 % 16) * 256 + d.val = _; omega),
    iblk0_1_apply V c t d e (ix2 (tix (t.val % 16) d) e) (by show (t.val % 16 % 16) * 256 + d.val = _; omega) rfl]

/-- One reduction step of the second accumulator at point t, in the arrays' own coordinates. -/
theorem step1 (c : Dev nD) (t : Fin cfg0.N) (a : Vec Ideal S1024x1024 .f32) (e s : Fin 1024) :
    Gen.k0_pay5 (F := Ideal) (iblk0 V c 0 t) (iblk0 V c 2 t) a (ix2 e s)
      = (a : S1024x1024.Idx → EReal) (ix2 e s) + ∑ d : Fin 256, Qa V c (ix2 e (tix (t.val % 16) d)) * Xa V c (ix2 (rix (t.val / 16) s) (tix (t.val % 16) d)) := by
  have hN : t.val < 64 := lt_of_lt_of_eq t.isLt (show cfg0.N = 64 from N_0)
  refine (pay5_apply _ _ _ e s).trans ?_
  refine congrArg ((a : S1024x1024.Idx → EReal) (ix2 e s) + ·) (Finset.sum_congr rfl fun d _ => ?_)
  rw [iblk0_2_apply V c t e d (ix2 e (tix (t.val % 16) d)) rfl (by show (t.val % 16 % 16) * 256 + d.val = _; omega),
    iblk0_0_apply V c t s d (ix2 (rix (t.val / 16) s) (tix (t.val % 16) d))
      (by show (t.val / 16 % 4) * 1024 + s.val = _; omega) (by show (t.val % 16 % 16) * 256 + d.val = _; omega)]

/-- THE FIRST ACCUMULATOR after point n: the tiles 0 … n % 16 of row block n / 16, summed. -/
theorem acc0_inv (c : Dev nD) : ∀ (n : ℕ) (hn : n < cfg0.N) (p e : Fin 1024),
    ((outsAt0 V c n hn).2.2.1 : S1024x1024.Idx → EReal) (ix2 p e)
      = ∑ k ∈ Finset.range (n % 16 + 1), ∑ d : Fin 256, Xa V c (ix2 (rix (n / 16) p) (tix k d)) * Pa V c (ix2 (tix k d) e) := by
  intro n
  induction n with
  | zero =>
    intro hn p e
    rw [show outsAt0 V c 0 hn = _ from outsAt0_A V c ⟨0, hn⟩ (Nat.zero_mod _) (by show ¬(0 : ℕ) % 16 = 15; decide), contA_acc0]
    refine (step0 V c ⟨0, hn⟩ _ p e).trans ?_
    rw [pay1_apply, zero_add]
    show (∑ d : Fin 256, Xa V c (ix2 (rix (0 / 16) p) (tix (0 % 16) d)) * Pa V c (ix2 (tix (0 % 16) d) e)) = _
    rw [Nat.zero_mod, Nat.zero_add, Finset.sum_range_one]
  | succ n ih =>
    intro hn p e
    have hN : n + 1 < 64 := lt_of_lt_of_eq hn (show cfg0.N = 64 from N_0)
    by_cases h0 : (n + 1) % 16 = 0
    · have h1 : ¬(n + 1) % 16 = 15 := by omega
      rw [show outsAt0 V c (n + 1) hn = _ from outsAt0_A V c ⟨n + 1, hn⟩ h0 h1, contA_acc0]
      refine (step0 V c ⟨n + 1, hn⟩ _ p e).trans ?_
      rw [pay1_apply, zero_add]
      show (∑ d : Fin 256, Xa V c (ix2 (rix ((n + 1) / 16) p) (tix ((n + 1) % 16) d)) * Pa V c (ix2 (tix ((n + 1) % 16) d) e)) = _
      rw [h0, Nat.zero_add, Finset.sum_range_one]
    · have hq : (n + 1) / 16 = n / 16 := by omega
      have hr : (n + 1) % 16 = n % 16 + 1 := by omega
      have ih' : ((prev0 V c ⟨n + 1, hn⟩).2.2.1 : S1024x1024.Idx → EReal) (ix2 p e)
          = ∑ k ∈ Finset.range (n % 16 + 1), ∑ d : Fin 256, Xa V c (ix2 (rix (n / 16) p) (tix k d)) * Pa V c (ix2 (tix k d) e) := ih (Nat.lt_of_succ_lt hn) p e
      by_cases h1 : (n + 1) % 16 = 15
      · rw [show outsAt0 V c (n + 1) hn = _ from outsAt0_C V c ⟨n + 1, hn⟩ h0 h1, contC_acc0]
        refine (step0 V c ⟨n + 1, hn⟩ _ p e).trans ?_
        rw [ih']
        show _ + (∑ d : Fin 256, Xa V c (ix2 (rix ((n + 1) / 16) p) (tix ((n + 1) % 16) d)) * Pa V c (ix2 (tix ((n + 1) % 16) d) e)) = _
        rw [hq, hr, Finset.sum_range_succ _ (n % 16 + 1)]
      · rw [show outsAt0 V c (n + 1) hn = _ from outsAt0_B V c ⟨n + 1, hn⟩ h0 h1, contB_acc0]
        refine (step0 V c ⟨n + 1, hn⟩ _ p e).trans ?_
        rw [ih']
        show _ + (∑ d : Fin 256, Xa V c (ix2 (rix ((n + 1) / 16) p) (tix ((n + 1) % 16) d)) * Pa V c (ix2 (tix ((n + 1) % 16) d) e)) = _
        rw [hq, hr, Finset.sum_range_succ _ (n % 16 + 1)]

/-- THE SECOND ACCUMULATOR after point n: the tiles 0 … n % 16 against row block n / 16, summed. -/
theorem acc1_inv (c : Dev nD) : ∀ (n : ℕ) (hn : n < cfg0.N) (e s : Fin 1024),
    ((outsAt0 V c n hn).2.2.2 : S1024x1024.Idx → EReal) (ix2 e s)
      = ∑ k ∈ Finset.range (n % 16 + 1), ∑ d : Fin 256, Qa V c (ix2 e (tix k d)) * Xa V c (ix2 (rix (n / 16) s) (tix k d)) := by
  intro n
  induction n with
  | zero =>
    intro hn e s
    rw [show outsAt0 V c 0 hn = _ from outsAt0_A V c ⟨0, hn⟩ (Nat.zero_mod _) (by show ¬(0 : ℕ) % 16 = 15; decide), contA_acc1]
    refine (step1 V c ⟨0, hn⟩ _ e s).trans ?_
    rw [pay2_apply, zero_add]
    show (∑ d : Fin 256, Qa V c (ix2 e (tix (0 % 16) d)) * Xa V c (ix2 (rix (0 / 16) s) (tix (0 % 16) d))) = _
    rw [Nat.zero_mod, Nat.zero_add, Finset.sum_range_one]
  | succ n ih =>
    intro hn e s
    have hN : n + 1 < 64 := lt_of_lt_of_eq hn (show cfg0.N = 64 from N_0)
    by_cases h0 : (n + 1) % 16 = 0
    · have h1 : ¬(n + 1) % 16 = 15 := by omega
      rw [show outsAt0 V c (n + 1) hn = _ from outsAt0_A V c ⟨n + 1, hn⟩ h0 h1, contA_acc1]
      refine (step1 V c ⟨n + 1, hn⟩ _ e s).trans ?_
      rw [pay2_apply, zero_add]
      show (∑ d : Fin 256, Qa V c (ix2 e (tix ((n + 1) % 16) d)) * Xa V c (ix2 (rix ((n + 1) / 16) s) (tix ((n + 1) % 16) d))) = _
      rw [h0, Nat.zero_add, Finset.sum_range_one]
    · have hq : (n + 1) / 16 = n / 16 := by omega
      have hr : (n + 1) % 16 = n % 16 + 1 := by omega
      have ih' : ((prev0 V c ⟨n + 1, hn⟩).2.2.2 : S1024x1024.Idx → EReal) (ix2 e s)
          = ∑ k ∈ Finset.range (n % 16 + 1), ∑ d : Fin 256, Qa V c (ix2 e (tix k d)) * Xa V c (ix2 (rix (n / 16) s) (tix k d)) := ih (Nat.lt_of_succ_lt hn) e s
      by_cases h1 : (n + 1) % 16 = 15
      · rw [show outsAt0 V c (n + 1) hn = _ from outsAt0_C V c ⟨n + 1, hn⟩ h0 h1, contC_acc1]
        refine (step1 V c ⟨n + 1, hn⟩ _ e s).trans ?_
        rw [ih']
        show _ + (∑ d : Fin 256, Qa V c (ix2 e (tix ((n + 1) % 16) d)) * Xa V c (ix2 (rix ((n + 1) / 16) s) (tix ((n + 1) % 16) d))) = _
        rw [hq, hr, Finset.sum_range_succ _ (n % 16 + 1)]
      · rw [show outsAt0 V c (n + 1) hn = _ from outsAt0_B V c ⟨n + 1, hn⟩ h0 h1, contB_acc1]
        refine (step1 V c ⟨n + 1, hn⟩ _ e s).trans ?_
        rw [ih']
        show _ + (∑ d : Fin 256, Qa V c (ix2 e (tix ((n + 1) % 16) d)) * Xa V c (ix2 (rix ((n + 1) / 16) s) (tix ((n + 1) % 16) d))) = _
        rw [hq, hr, Finset.sum_range_succ _ (n % 16 + 1)]

end Cert.KernelIdeal.Hand

end
-- ==== Proof.KI.V0Final.lean ====
/- Region 0's value over the extended reals: after the region the first output array is X·P and the second is Q·Xᵀ,
   of the three arrays as the region finds them. An output block is written back only at the last step of a reduction
   (the points 16·i + 15), where it is the accumulator cast to the output's format — the identity on the extended
   reals — and the accumulator then holds the sum over all 16 tiles of 256 contraction positions, which is the sum over
   all 4096 positions. The four row blocks of the first array, and the four column blocks of the second, tile them. -/
import proofs.«145582_j70995809403345_2_alg».proof.Proof.KI.V0Acc
import proofs.«145582_j70995809403345_2_alg».proof.Proof.KI.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.ContactSpec (XPof QXTof SP SQ SX)

variable (V : (c : Dev nD) → (b : Ref sig .tc) → Buf (Elt Ideal) ((c : Thread nD τ).loc b))

/-! ## The two specifications at an index whose coordinates are known -/

theorem xp_at (X : SX.Idx → EReal) (Pm : SP.Idx → EReal) (j : SP.Idx) (r : Fin 4096) (e : Fin 1024)
    (hr : (j 0).val = r.val) (he : (j 1).val = e.val) :
    XPof X Pm j = ∑ D : Fin 4096, X (ix2 r D) * Pm (ix2 D e) := by
  have e0 : (⟨(j 0).val, idx2_lt0 j⟩ : Fin 4096) = r := Fin.ext hr
  have e1 : (⟨(j 1).val, idx2_lt1 j⟩ : Fin 1024) = e := Fin.ext he
  unfold XPof
  dsimp only
  rw [e0, e1]

theorem qxt_at (X : SX.Idx → EReal) (Qm : SQ.Idx → EReal) (j : SQ.Idx) (e : Fin 1024) (s : Fin 4096)
    (he : (j 0).val = e.val) (hs : (j 1).val = s.val) :
    QXTof X Qm j = ∑ D : Fin 4096, Qm (ix2 e D) * X (ix2 s D) := by
  have e0 : (⟨(j 0).val, idx2_lt0 j⟩ : Fin 1024) = e := Fin.ext he
  have e1 : (⟨(j 1).val, idx2_lt1 j⟩ : Fin 4096) = s := Fin.ext hs
  unfold QXTof
  dsimp only
  rw [e0, e1]

/-! ## The output buffers at a reduction's last step -/

/-- At a reduction's last step the first output buffer is the first accumulator, cast. -/
theorem out3_eq (c : Dev nD) (t : Fin cfg0.N) (h1 : t.val % 16 = 15) :
    (outsAt0 V c t.val t.isLt).1 = k0_pay6 ((outsAt0 V c t.val t.isLt).2.2.1) := by
  have h0 : ¬t.val % 16 = 0 := by omega
  rw [outsAt0_C V c t h0 h1, contC_out3, contC_acc0]

/-- The same for the second output buffer and the second accumulator. -/
theorem out4_eq (c : Dev nD) (t : Fin cfg0.N) (h1 : t.val % 16 = 15) :
    (outsAt0 V c t.val t.isLt).2.1 = k0_pay7 ((outsAt0 V c t.val t.isLt).2.2.2) := by
  have h0 : ¬t.val % 16 = 0 := by omega
  rw [outsAt0_C V c t h0 h1, contC_out4, contC_acc1]

/-- So its entry (p, e) is the whole contraction: Σ_D X[1024·(t/16) + p, D]·P[D, e]. -/
theorem out3_apply (c : Dev nD) (t : Fin cfg0.N) (h1 : t.val % 16 = 15) (p e : Fin 1024) :
    ((outsAt0 V c t.val t.isLt).1 : S1024x1024.Idx → EReal) (ix2 p e)
      = ∑ D : Fin 4096, Xa V c (ix2 (rix (t.val / 16) p) D) * Pa V c (ix2 D e) := by
  rw [out3_eq V c t h1]
  refine (pay6_apply _ _).trans ?_
  refine (acc0_inv V c t.val t.isLt p e).trans ?_
  rw [h1]
  exact sum_tiles (fun D => Xa V c (ix2 (rix (t.val / 16) p) D) * Pa V c (ix2 D e))

/-- And the second's entry (e, s) is Σ_D Q[e, D]·X[1024·(t/16) + s, D]. -/
theorem out4_apply (c : Dev nD) (t : Fin cfg0.N) (h1 : t.val % 16 = 15) (e s : Fin 1024) :
    ((outsAt0 V c t.val t.isLt).2.1 : S1024x1024.Idx → EReal) (ix2 e s)
      = ∑ D : Fin 4096, Qa V c (ix2 e D) * Xa V c (ix2 (rix (t.val / 16) s) D) := by
  rw [out4_eq V c t h1]
  refine (pay7_apply _ _).trans ?_
  refine (acc1_inv V c t.val t.isLt e s).trans ?_
  rw [h1]
  exact sum_tiles (fun D => Qa V c (ix2 e D) * Xa V c (ix2 (rix (t.val / 16) s) D))

/-! ## What a writing point writes back -/

/-- A point that writes the first output back writes block `t / 16` of X·P. -/
theorem flushed0_3_eq (c : Dev nD) (t : Fin cfg0.N) (hf : (cfg0.win 3).flush t = true) :
    (dat0 V c).flushed 3 t = ((cfg0.win 3).blk t).view.read (Elt Ideal) (XPof (Xa V c) (Pa V c)) := by
  have h1 : t.val % 16 = 15 := (flush0_3 t).mp hf
  have hN : t.val < 64 := lt_of_lt_of_eq t.isLt (show cfg0.N = 64 from N_0)
  show (cfg0.win 3).cut (grid0.coords t) ((dat0 V c).after 3 t) = _
  rw [after0_3]
  funext j
  obtain ⟨p, e, rfl⟩ : ∃ (p e : Fin 1024), j = ix2 p e := ⟨j 0, j 1, eq_ix2 j⟩
  show ((outsAt0 V c t.val t.isLt).1 : S1024x1024.Idx → EReal) (ix2 p e)
    = XPof (Xa V c) (Pa V c) (((cfg0.win 3).blk t).view.emb (ix2 p e))
  refine (out3_apply V c t h1 p e).trans (Eq.symm ?_)
  exact xp_at (Xa V c) (Pa V c) (((cfg0.win 3).blk t).view.emb (ix2 p e)) (rix (t.val / 16) p) e
    (by show win0_3.index t 0 * 1024 + 1 * p.val = (t.val / 16 % 4) * 1024 + p.val; rw [(idx0_3 t).1]; omega)
    (by show win0_3.index t 1 * 1024 + 1 * e.val = e.val; rw [(idx0_3 t).2]; omega)

/-- A point that writes the second output back writes column block `t / 16` of Q·Xᵀ. -/
theorem flushed0_4_eq (c : Dev nD) (t : Fin cfg0.N) (hf : (cfg0.win 4).flush t = true) :
    (dat0 V c).flushed 4 t = ((cfg0.win 4).blk t).view.read (Elt Ideal) (QXTof (Xa V c) (Qa V c)) := by
  have h1 : t.val % 16 = 15 := (flush0_4 t).mp hf
  have hN : t.val < 64 := lt_of_lt_of_eq t.isLt (show cfg0.N = 64 from N_0)
  show (cfg0.win 4).cut (grid0.coords t) ((dat0 V c).after 4 t) = _
  rw [after0_4]
  funext j
  obtain ⟨e, s, rfl⟩ : ∃ (e s : Fin 1024), j = ix2 e s := ⟨j 0, j 1, eq_ix2 j⟩
  show ((outsAt0 V c t.val t.isLt).2.1 : S1024x1024.Idx → EReal) (ix2 e s)
    = QXTof (Xa V c) (Qa V c) (((cfg0.win 4).blk t).view.emb (ix2 e s))
  refine (out4_apply V c t h1 e s).trans (Eq.symm ?_)
  exact qxt_at (Xa V c) (Qa V c) (((cfg0.win 4).blk t).view.emb (ix2 e s)) e (rix (t.val / 16) s)
    (by show win0_4.index t 0 * 1024 + 1 * e.val = e.val; rw [(idx0_4 t).1]; omega)
    (by show win0_4.index t 1 * 1024 + 1 * s.val = (t.val / 16 % 4) * 1024 + s.val; rw [(idx0_4 t).2]; omega)

/-! ## The written blocks tile the arrays -/

theorem mem_blk0_3 (t : Fin cfg0.N) (i : S4096x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v2_0).slice (win0_3.rect t)).set ↔ _
  rw [View.set_slice_whole, Rect.mem_set_unit]
  exact Iff.rfl

theorem mem_blk0_4 (t : Fin cfg0.N) (i : S1024x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v2_1).slice (win0_4.rect t)).set ↔ _
  rw [View.set_slice_whole, Rect.mem_set_unit]
  exact Iff.rfl

/-- Entry (r, e) of the first array is in the block of point 16·(r / 1024) + 15, which writes it back. -/
theorem cover0_3 (i : S4096x1024.Idx) :
    ∃ t : Fin cfg0.N, (cfg0.win 3).flush t = true ∧ i ∈ ((cfg0.win 3).blk t).view.set := by
  have h0 : (i 0).val < 4096 := (i 0).isLt
  have h1 : (i 1).val < 1024 := (i 1).isLt
  have hN : cfg0.N = 64 := N_0
  have ht : (i 0).val / 1024 * 16 + 15 < cfg0.N := by rw [hN]; omega
  obtain ⟨e0, e1⟩ := idx0_3 ⟨(i 0).val / 1024 * 16 + 15, ht⟩
  refine ⟨⟨(i 0).val / 1024 * 16 + 15, ht⟩, (flush0_3 _).mpr (by show ((i 0).val / 1024 * 16 + 15) % 16 = 15; omega), ?_⟩
  rw [mem_blk0_3]
  intro a
  match a with
  | ⟨0, _⟩ =>
    show win0_3.index ⟨(i 0).val / 1024 * 16 + 15, ht⟩ 0 * 1024 ≤ (i 0).val ∧ (i 0).val < win0_3.index ⟨(i 0).val / 1024 * 16 + 15, ht⟩ 0 * 1024 + 1024
    rw [e0]; dsimp only; omega
  | ⟨1, _⟩ =>
    show win0_3.index ⟨(i 0).val / 1024 * 16 + 15, ht⟩ 1 * 1024 ≤ (i 1).val ∧ (i 1).val < win0_3.index ⟨(i 0).val / 1024 * 16 + 15, ht⟩ 1 * 1024 + 1024
    rw [e1]; omega

/-- Entry (e, s) of the second array is in the block of point 16·(s / 1024) + 15, which writes it back. -/
theorem cover0_4 (i : S1024x4096.Idx) :
    ∃ t : Fin cfg0.N, (cfg0.win 4).flush t = true ∧ i ∈ ((cfg0.win 4).blk t).view.set := by
  have h0 : (i 0).val < 1024 := (i 0).isLt
  have h1 : (i 1).val < 4096 := (i 1).isLt
  have hN : cfg0.N = 64 := N_0
  have ht : (i 1).val / 1024 * 16 + 15 < cfg0.N := by rw [hN]; omega
  obtain ⟨e0, e1⟩ := idx0_4 ⟨(i 1).val / 1024 * 16 + 15, ht⟩
  refine ⟨⟨(i 1).val / 1024 * 16 + 15, ht⟩, (flush0_4 _).mpr (by show ((i 1).val / 1024 * 16 + 15) % 16 = 15; omega), ?_⟩
  rw [mem_blk0_4]
  intro a
  match a with
  | ⟨0, _⟩ =>
    show win0_4.index ⟨(i 1).val / 1024 * 16 + 15, ht⟩ 0 * 1024 ≤ (i 0).val ∧ (i 0).val < win0_4.index ⟨(i 1).val / 1024 * 16 + 15, ht⟩ 0 * 1024 + 1024
    rw [e0]; omega
  | ⟨1, _⟩ =>
    show win0_4.index ⟨(i 1).val / 1024 * 16 + 15, ht⟩ 1 * 1024 ≤ (i 1).val ∧ (i 1).val < win0_4.index ⟨(i 1).val / 1024 * 16 + 15, ht⟩ 1 * 1024 + 1024
    rw [e1]; dsimp only; omega

/-! ## The arrays after the region -/

/-- THE FIRST OUTPUT ARRAY after the region is X·P. -/
theorem final0_3 (c : Dev nD) : (dat0 V c).arrAt 3 cfg0.N = XPof (Xa V c) (Pa V c) :=
  (dat0 V c).arrAt_eq_of_cover 3 (XPof (Xa V c) (Pa V c)) (fun t hf => flushed0_3_eq V c t hf) cover0_3

/-- THE SECOND OUTPUT ARRAY after the region is Q·Xᵀ. -/
theorem final0_4 (c : Dev nD) : (dat0 V c).arrAt 4 cfg0.N = QXTof (Xa V c) (Qa V c) :=
  (dat0 V c).arrAt_eq_of_cover 4 (QXTof (Xa V c) (Qa V c)) (fun t hf => flushed0_4_eq V c t hf) cover0_4

end Cert.KernelIdeal.Hand

end
-- ==== Proof.KI.XSlice.lean ====
/- The host prefix read at an index: rows 1..4096 of the 1 × 4097 × 4096 feature array, sliced out and reshaped to
   4096 × 4096, are the specification's X, entry (r, d) being features[0, r + 1, d]. -/
import proofs.«145582_j70995809403345_2_alg».proof.Proof.KI.Spec
import proofs.«145582_j70995809403345_2_alg».proof.Proof.Gen.KernelIdeal
import Idealize.ShloMosaic.Lib.Pipeline.Value
import Idealize.ShloMosaic.Lib.ValueIdx
import Idealize.ShloMosaic.Lib.ValueLayout

noncomputable section

namespace Cert.ContactSpec

open Idealize.ShloMosaic Idealize.ShloMosaic.ValueIdx

/-- The slice of rows 1..4096 followed by the reshape that drops the leading unit axis is X, whatever the two
    well-formedness proofs are. -/
theorem slice_reshape_eq_Xof (x0 : FVec Ideal ⟨3, ![1, 4097, 4096]⟩ .f32)
    (hs : (⟨3, ![1, 4097, 4096]⟩ : Shape).Slices ![0, 1, 0] ⟨3, ![1, 4096, 4096]⟩)
    (hc : (⟨3, ![1, 4096, 4096]⟩ : Shape).ShapeCasts ⟨2, ![4096, 4096]⟩) :
    shapeCast (⟨2, ![4096, 4096]⟩ : Shape) (extractStridedSlice (⟨3, ![1, 4096, 4096]⟩ : Shape) ![0, 1, 0] x0 hs) hc = Xof x0 := by
  funext j
  have h0 : (j 0).val < 4096 := idx2_lt0 j
  have h1 : (j 1).val < 4096 := idx2_lt1 j
  refine (shapeCast_apply _ hc j (ix3 (0 : Fin 1) (⟨(j 0).val, h0⟩ : Fin 4096) (⟨(j 1).val, h1⟩ : Fin 4096)) ?_).trans ?_
  · rewrite [Shape.rowMajor_val_three, Shape.rowMajor_val_two]
    show (0 * 4096 + (j 0).val) * 4096 + (j 1).val = (j 0).val * 4096 + (j 1).val
    omega
  · exact extractStridedSlice_apply ![0, 1, 0] x0 hs _
      (ix3 (0 : Fin 1) (⟨(j 0).val + 1, by omega⟩ : Fin 4097) (⟨(j 1).val, h1⟩ : Fin 4096)) (fun a => match a with
      | ⟨0, _⟩ => by show 0 = 0 + 0; omega
      | ⟨1, _⟩ => by show (j 0).val + 1 = 1 + (j 0).val; omega
      | ⟨2, _⟩ => by show (j 1).val = 0 + (j 1).val; omega)

end Cert.ContactSpec

namespace Cert.KernelIdeal.Hand

open Cert.KernelIdeal Cert.KernelIdeal.Gen
open Idealize.ShloMosaic Idealize.ShloMosaic.ValueIdx

/-- The program's own spelling of the host prefix is X. -/
theorem X_kernel (x0 : FVec Ideal S1x4097x4096 .f32) :
    shapeCast S4096x4096 (extractStridedSlice S1x4096x4096 ![0, 1, 0] x0 slices_S1x4097x4096_S1x4096x4096_0_1_0) shapeCasts_S1x4096x4096_S4096x4096
      = Cert.ContactSpec.Xof x0 :=
  Cert.ContactSpec.slice_reshape_eq_Xof x0 slices_S1x4097x4096_S1x4096x4096_0_1_0 shapeCasts_S1x4096x4096_S4096x4096

end Cert.KernelIdeal.Hand

end
-- ==== Proof.KI.KernelValue.lean ====
/- The idealized kernel's value: at exact arithmetic the run of @main ends with the result array holding the strictly
   lower triangle of (X·P)·(Q·Xᵀ) of the three arguments as launched — the second grid's array after its region is the
   masked product of the two intermediate arrays, those are what the first grid leaves (X·P and Q·Xᵀ of the arrays it is
   entered with), and it is entered with X the rows 1…4096 of the first argument and with P and Q as launched. -/
import proofs.«145582_j70995809403345_2_alg».proof.Proof.KI.Run
import proofs.«145582_j70995809403345_2_alg».proof.Proof.KI.R1Value
import proofs.«145582_j70995809403345_2_alg».proof.Proof.KI.V0Final
import proofs.«145582_j70995809403345_2_alg».proof.Proof.KI.XSlice
import proofs.«145582_j70995809403345_2_alg».proof.Proof.KI.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The first grid is entered with X the rows 1…4096 of the first argument, and with P and Q as launched. -/
theorem Xa_entry (c : Dev nD) : Xa (V1 m ρ) c = Cert.ContactSpec.Xof (m ((c : Thread nD τ).loc main_arg0)) :=
  (V1_main_v1 m ρ c).trans (X_kernel _)
theorem Pa_entry (c : Dev nD) : Pa (V1 m ρ) c = m ((c : Thread nD τ).loc main_arg1) := V1_main_arg1 m ρ c
theorem Qa_entry (c : Dev nD) : Qa (V1 m ρ) c = m ((c : Thread nD τ).loc main_arg2) := V1_main_arg2 m ρ c

/-- THE VALUE: what the second grid leaves in the result array is the specification's map of the launch contents. -/
theorem kernel_value (c : Dev nD) :
    (dat1 (V2 m ρ) c).arrAt 2 cfg1.N
      = Cert.ContactSpec.G (m ((c : Thread nD τ).loc main_arg0)) (m ((c : Thread nD τ).loc main_arg1)) (m ((c : Thread nD τ).loc main_arg2)) := by
  rw [final1 (V2 m ρ) c]
  unfold Cert.ContactSpec.G
  rw [V2_main_v2_0 m ρ c, V2_main_v2_1 m ρ c, final0_3 (V1 m ρ) c, final0_4 (V1 m ρ) c, Xa_entry m ρ c, Pa_entry m ρ c, Qa_entry m ρ c]

/-- THE RUN WITH ITS VALUE: every weakly fair execution terminates, the result array at the specification's map of
    the launch contents, the three arguments as launched. -/
theorem kernel_run : θ_run defs (onTc (τ := τ) (main (F := Ideal))) ⟨m, fun _ => 0, ρ⟩ (fun r => ∀ c : Dev nD,
      r.2.mem ((c.tc : Thread nD τ).loc main_v3)
        = Cert.ContactSpec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c _ (mem_uc main_v3 (by decide))).trans (W3_main_v3 m ρ c)).trans (kernel_value m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.KernelIdeal.Hand

end
-- ==== Proof.KI.RefG.lean ====
/- The reference's result is the specification. The run's composed term for the result array, read index by index,
   is the strictly lower triangle of (X·P)·(Q·Xᵀ): the slice and the reshape read X[r, d] = features[0, r + 1, d], the
   three products are the plain sums over the contracted coordinate, the transposition exchanges the two coordinates,
   and the mask "row − 1 ≥ column as signed 32-bit words" is "column < row" for coordinates below 4096. -/
import proofs.«145582_j70995809403345_2_alg».proof.Proof.RefRead
import proofs.«145582_j70995809403345_2_alg».proof.Proof.KI.Spec

noncomputable section

open scoped BigOperators

namespace Cert.ReferenceIdeal.RefG

open Cert.ReferenceIdeal Cert.ReferenceIdeal.Gen Idealize.ShloMosaic Idealize.ShloMosaic.ValueIdx Cert.ContactSpec

/-- The mask, as words: for r, s < 4096, the signed comparison (r + (−1)) ≥ s of 32-bit words holds iff s < r. -/
theorem keep_iff (r s : Fin 4096) :
    IntOp.cmpi .sge (IntOp.addi (BitVec.ofNat 32 r.val) 4294967295#32) (BitVec.ofNat 32 s.val) = 1 ↔ s.val < r.val := by
  have hr := r.isLt; have hs := s.isLt
  have e1 : (1 : BitVec 1) = BitVec.ofBool true := rfl
  show BitVec.ofBool ((BitVec.ofNat 32 s.val).sle (BitVec.ofNat 32 r.val + 4294967295#32)) = 1 ↔ _
  rw [e1, BitVec.ofBool_eq_iff_eq, BitVec.sle_eq_decide, decide_eq_true_iff]
  have hs' : (BitVec.ofNat 32 s.val).toInt = (s.val : Int) := by
    rw [BitVec.toInt_eq_toNat_cond, BitVec.toNat_ofNat]
    split <;> omega
  have hx : (BitVec.ofNat 32 r.val + 4294967295#32).toInt = (r.val : Int) - 1 := by
    rw [BitVec.toInt_eq_toNat_cond, BitVec.toNat_add, BitVec.toNat_ofNat, BitVec.toNat_ofNat]
    split <;> omega
  rw [hs', hx]; omega

/-- The sliced and reshaped feature array is X: entry (r, d) is features[0, r + 1, d]. -/
theorem X_read (x0 : FVec Ideal S1x4097x4096 .f32) (j : S4096x4096.Idx) :
    Read.val_main_v1 (F := Ideal) x0 j = Xof x0 j := by
  rw [Read.val_main_v1_apply, Read.val_main_v0_apply]
  have h0 := idx2_lt0 j; have h1 := idx2_lt1 j
  refine congrArg x0 (funext fun a => Fin.ext ?_)
  match a with
  | ⟨0, _⟩ => rfl
  | ⟨1, _⟩ => show 1 + ((j 0).val * 4096 + (j 1).val) / 4096 % 4096 = (j 0).val + 1; omega
  | ⟨2, _⟩ => show ((j 0).val * 4096 + (j 1).val) % 4096 = (j 1).val; omega

/-- The first product is X·P. -/
theorem XP_read (x0 : FVec Ideal S1x4097x4096 .f32) (x1 : FVec Ideal S4096x1024 .f32) (j : S4096x1024.Idx) :
    Read.val_main_v2 (F := Ideal) x0 x1 j = XPof (Xof x0) x1 j := by
  rw [Read.val_main_v2_apply]
  unfold XPof
  refine Finset.sum_congr rfl fun d _ => ?_
  rw [X_read]
  refine congrArg₂ (· * ·) (congrArg (Xof x0) ?_) (congrArg x1 ?_)
  · funext a; match a with | ⟨0, _⟩ => rfl | ⟨1, _⟩ => rfl
  · funext a; match a with | ⟨0, _⟩ => rfl | ⟨1, _⟩ => rfl

/-- The second product, against the transposed X, is Q·Xᵀ. -/
theorem QXT_read (x0 : FVec Ideal S1x4097x4096 .f32) (x2 : FVec Ideal S1024x4096 .f32) (j : S1024x4096.Idx) :
    Read.val_main_v4 (F := Ideal) x0 x2 j = QXTof (Xof x0) x2 j := by
  rw [Read.val_main_v4_apply]
  unfold QXTof
  refine Finset.sum_congr rfl fun d _ => ?_
  rw [Read.val_main_v3_apply, X_read]
  refine congrArg₂ (· * ·) (congrArg x2 ?_) (congrArg (Xof x0) ?_)
  · funext a; match a with | ⟨0, _⟩ => rfl | ⟨1, _⟩ => rfl
  · funext a; match a with | ⟨0, _⟩ => rfl | ⟨1, _⟩ => rfl

/-- The third product is (X·P)·(Q·Xᵀ), entry by entry. -/
theorem prod_read (x0 : FVec Ideal S1x4097x4096 .f32) (x1 : FVec Ideal S4096x1024 .f32) (x2 : FVec Ideal S1024x4096 .f32)
    (i : S4096x4096.Idx) :
    Read.val_main_v5 (F := Ideal) x0 x1 x2 i
      = ∑ e : Fin 1024, XPof (Xof x0) x1 (ix2 (⟨(i 0).val, idx2_lt0 i⟩ : Fin 4096) e)
          * QXTof (Xof x0) x2 (ix2 e (⟨(i 1).val, idx2_lt1 i⟩ : Fin 4096)) := by
  rw [Read.val_main_v5_apply]
  refine Finset.sum_congr rfl fun e _ => ?_
  rw [XP_read, QXT_read]
  refine congrArg₂ (· * ·) (congrArg (XPof (Xof x0) x1) ?_) (congrArg (QXTof (Xof x0) x2) ?_)
  · funext a; match a with | ⟨0, _⟩ => rfl | ⟨1, _⟩ => rfl
  · funext a; match a with | ⟨0, _⟩ => rfl | ⟨1, _⟩ => rfl

/-- The reference's result array is the specification's map of the three arguments. -/
theorem result_eq (x0 : FVec Ideal S1x4097x4096 .f32) (x1 : FVec Ideal S4096x1024 .f32) (x2 : FVec Ideal S1024x4096 .f32) :
    select (cmpi .sge (addi (iotaInDim S4096x4096 32 0) (broadcastInDim S4096x4096 ![] bcast_S_S4096x4096 (constantI S_ 32 4294967295#32))) (iotaInDim S4096x4096 32 1)) (Host.dotGeneral (F := Ideal) dot_S4096x1024_S1024x4096_S4096x4096_1_0_0_1_n_n none (Host.dotGeneral (F := Ideal) dot_S4096x4096_S4096x1024_S4096x1024_1_0_0_1_n_n none (shapeCast _ (extractStridedSlice S1x4096x4096 ![0, 1, 0] x0 slices_S1x4097x4096_S1x4096x4096_0_1_0) shapeCasts_S1x4096x4096_S4096x4096) x1) (Host.dotGeneral (F := Ideal) dot_S1024x4096_S4096x4096_S1024x4096_1_0_0_1_n_n none x2 (transpose S4096x4096 [1, 0] (shapeCast _ (extractStridedSlice S1x4096x4096 ![0, 1, 0] x0 slices_S1x4097x4096_S1x4096x4096_0_1_0) shapeCasts_S1x4096x4096_S4096x4096) transposes_S4096x4096_S4096x4096_1_0))) (broadcastInDim S4096x4096 ![] bcast_S_S4096x4096 (constant (F := Ideal) S_ .f32 0x00000000#32))
      = Cert.ContactSpec.G x0 x1 x2 := by
  refine (Read.val_main_v6_eq (F := Ideal) x0 x1 x2).trans ?_
  funext i
  rw [Read.val_main_v6_apply]
  have hmask : Read.val_main_call0_v4 (F := Ideal) i = 1 ↔ (i 1).val < (i 0).val := by
    rw [Read.val_main_call0_v4_apply, Read.val_main_call0_v2_apply, Read.val_main_call0_v0_apply,
      Read.val_main_call0_v1_apply, Read.val_main_call0_c_apply, Read.val_main_call0_v3_apply]
    exact keep_iff ⟨(i 0).val, idx2_lt0 i⟩ ⟨(i 1).val, idx2_lt1 i⟩
  have hz : Read.val_main_call0_v5 (F := Ideal) i = (0 : EReal) := by
    rw [Read.val_main_call0_v5_apply, Read.val_main_call0_cst_apply]; exact Ideal.ofBits_zero_f32
  unfold Scalar.select Cert.ContactSpec.G maskedProduct
  by_cases h : (i 1).val < (i 0).val
  · rw [if_pos (hmask.2 h), if_pos h, prod_read]
  · rw [if_neg (fun hc => h (hmask.1 hc)), if_neg h, hz]

end Cert.ReferenceIdeal.RefG

end
-- ==== Proof.lean ====
/- The proof of `Cert.Claim` (Defs.lean): the three programs' frames, the idealization, and the equality of the
   idealized kernel's and the idealized reference's results at exact arithmetic.

   The programs. With X the rows 1…4096 of the first argument read as a 4096×4096 matrix, P 4096×1024 and Q 1024×4096,
   all three compute S, the strictly lower triangle of (X·P)·(Q·Xᵀ): S[i, j] = Σ_a (Σ_k X[i,k]·P[k,a]) · (Σ_k Q[a,k]·X[j,k])
   for j < i and 0 otherwise (`Cert.ContactSpec.G`, Proof/KI/Spec.lean). The kernel does so over two grids. The first
   (4×16 points, the second coordinate the reduction's) adds to two accumulators, zeroed where that coordinate is 0, the
   products of a 1024×256 block of X with a 256×1024 block of P and of a 1024×256 block of Q with the same block of X
   transposed, and writes the accumulators out, as X·P and Q·Xᵀ, where that coordinate is 15. The second (8×8 points)
   writes each 512×512 block of S: the product of a row block of X·P with a column block of Q·Xᵀ kept where
   column < row, at the points on or below the block diagonal, and zeros at those above it. The reference is the same
   sums written whole: two products, their product, and a selection by row > column.

   The modules.
   * `Proof/K/` (the kernel as printed, any float instance, cited at `Bits`) and `Proof/KI/` (the idealized kernel,
     cited at `Ideal`), the same text: `R0Runs`, `R0RunA`/`B`/`C`, `R0Frame` — the first grid's body at each of its
     three kinds of point and that pipeline's proof data; `R1Runs`, `R1Frame` — the second grid's; `Run` — the buffers'
     contents at the boundaries between the host operations and the two grids, the grids as segments of @main, and the
     run: every weakly fair execution terminates with every buffer at the last boundary's contents, whence the frames
     `frame_k`, `frame_ki` below.
   * `Proof/KI/`, at exact arithmetic only. `Spec` — the specification `G`. `LibDot`, `LibDotRows` — a matrix product
     over one contracted axis (rows against columns; rows against rows) read at an index is the plain sum of products;
     `LibSums` — two re-indexings of finite sums. `XSlice` — the two host operations give X. The first grid's value:
     `V0Pay` — what its body stores, read at an index; `V0Blocks` — each window's block at a point is its array at the
     block's offset; `V0Pieces` — what a run of the body leaves in the accumulators and the output buffers; `V0Tiles` — a
     sum over 4096 positions is the sum over 16 tiles of 256; `V0Acc` — the accumulators point by point; `V0Final` — after
     the region the two output arrays are X·P and Q·Xᵀ. The second grid's value: `R1Pay` — its two branches' stores read
     at an index; `R1Value` — after the region the result array is the masked product of the two input arrays.
     `KernelValue` — these composed along the run: the result array ends at `G` of the arguments as launched.
   * The reference: `Proof/RefRun` — its run, read back at its result (the operations' composed term) and its arguments,
     whence `frame_ri`; `Proof/RefRead` — that term read at an index; `Proof/KI/RefG` — that term is `G` of the
     arguments. With `KernelValue`: the claim `algebraic` below. -/
import proofs.«145582_j70995809403345_2_alg».proof.Defs
import proofs.«145582_j70995809403345_2_alg».proof.Proof.Gen.Kernel
import proofs.«145582_j70995809403345_2_alg».proof.Proof.Gen.KernelIdeal
import proofs.«145582_j70995809403345_2_alg».proof.Proof.Gen.ReferenceIdeal
import proofs.«145582_j70995809403345_2_alg».proof.Proof.Gen.Pre_finite_inputs
import proofs.«145582_j70995809403345_2_alg».proof.Proof.K.Run
import proofs.«145582_j70995809403345_2_alg».proof.Proof.KI.Run
import proofs.«145582_j70995809403345_2_alg».proof.Proof.KI.KernelValue
import proofs.«145582_j70995809403345_2_alg».proof.Proof.RefRun
import proofs.«145582_j70995809403345_2_alg».proof.Proof.KI.RefG
import Idealize.ShloMosaic.Adequacy
import Idealize.ShloMosaic.Init

noncomputable section

namespace Cert.Proof

open Idealize.ShloMosaic Idealize.SL.Sem

/-- The kernel as printed, at the bit-exact instance: it runs and its three arguments end as launched. -/
theorem frame_k : Cert.frame_Kernel := fun m ρ _ => Cert.Kernel.Hand.frame (F := Bits) m ρ

/-- The idealized kernel, at exact arithmetic: it runs and its three arguments end as launched. -/
theorem frame_ki : Cert.frame_KernelIdeal := fun m ρ _ => Cert.KernelIdeal.Hand.frame (F := Ideal) m ρ

/-- The idealized reference, at exact arithmetic: it runs and its three arguments end as launched. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: the idealized kernel is the kernel's own text read at exact arithmetic. -/
theorem preserves : Cert.preserves_Kernel_KernelIdeal := trivial

/-- At exact arithmetic, from memories agreeing on the three arguments, the idealized kernel's result array and the
    idealized reference's both end at the specification's map of the arguments: the strictly lower triangle of
    (X·P)·(Q·Xᵀ). -/
theorem algebraic : Cert.algebraic_KernelIdeal_ReferenceIdeal := by
  intro m ρ m' ρ' _ hagree
  refine ⟨fun c => Cert.ContactSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefG.result_eq _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
